-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x16 : Shape := ⟨3, ![16, 64, 16]⟩
abbrev S128x3 : Shape := ⟨2, ![128, 3]⟩
abbrev S128 : Shape := ⟨1, ![128]⟩
abbrev S128x13 : Shape := ⟨2, ![128, 13]⟩
abbrev S256x128 : Shape := ⟨2, ![256, 128]⟩
abbrev S256 : Shape := ⟨1, ![256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S512x2048 : Shape := ⟨2, ![512, 2048]⟩
abbrev S2048x512 : Shape := ⟨2, ![2048, 512]⟩
abbrev S2048 : Shape := ⟨1, ![2048]⟩
abbrev S_ : Shape := ⟨0, ![]⟩

class Facts : Prop where
  bcast_S_S16x64x16 : S_.BroadcastsInDim S16x64x16 (![] : Fin 0 → Fin S16x64x16.rank)
  reducesTo_S16x64x16_S_d0_1_2 : S16x64x16.ReducesTo [0, 1, 2] S_
  h_S_ : 0 < S_.numel
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_
  bcast_S_S128x13 : S_.BroadcastsInDim S128x13 (![] : Fin 0 → Fin S128x13.rank)
  reducesTo_S128x13_S_d0_1 : S128x13.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x2048 : S_.BroadcastsInDim S512x2048 (![] : Fin 0 → Fin S512x2048.rank)
  reducesTo_S512x2048_S_d0_1 : S512x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S512x2048 .f32) (main_arg12 : FVec F S512 .f32) (main_arg13 : FVec F S2048x512 .f32) (main_arg14 : FVec F S2048 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S512x2048 .f32 := Host.absf main_arg11
  let main_cst_20 : FVec F S_ .f32 := constant S_ .f32 0x7F800000#32
  let main_v55 : FVec F S512x2048 .f32 := broadcastInDim S512x2048 ![] bcast_S_S512x2048 main_cst_20
  let main_v56 : IVec S512x2048 1 := cmpf .olt main_v54 main_v55
  let main_c_21 : IVec S_ 1 := constantI S_ 1 1#1
  let main_v57 : IVec S_ 1 := (fun x v => Host.reduce IntOp.andi x v reducesTo_S512x2048_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S2048x512 .f32 := Host.absf main_arg13
  let main_cst_24 : FVec F S_ .f32 := constant S_ .f32 0x7F800000#32
  let main_v65 : FVec F S2048x512 .f32 := broadcastInDim S2048x512 ![] bcast_S_S2048x512 main_cst_24
  let main_v66 : IVec S2048x512 1 := cmpf .olt main_v64 main_v65
  let main_c_25 : IVec S_ 1 := constantI S_ 1 1#1
  let main_v67 : IVec S_ 1 := (fun x v => Host.reduce IntOp.andi x v reducesTo_S2048x512_S_d0_1 h_S_) main_v66 main_c_25
  fn_part4 (F := F) main_arg14 main_v63 main_v67

def fn_part2 {F : FTy → Type} [FloatOps F] (main_arg7 : FVec F S512x256 .f32) (main_arg8 : FVec F S512 .f32) (main_arg9 : FVec F S1024x512 .f32) (main_arg10 : FVec F S1024 .f32) (main_arg11 : FVec F S512x2048 .f32) (main_arg12 : FVec F S512 .f32) (main_arg13 : FVec F S2048x512 .f32) (main_arg14 : FVec F S2048 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1024x512 .f32 := Host.absf main_arg9
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S128 .f32) (main_arg5 : FVec F S256x128 .f32) (main_arg6 : FVec F S256 .f32) (main_arg7 : FVec F S512x256 .f32) (main_arg8 : FVec F S512 .f32) (main_arg9 : FVec F S1024x512 .f32) (main_arg10 : FVec F S1024 .f32) (main_arg11 : FVec F S512x2048 .f32) (main_arg12 : FVec F S512 .f32) (main_arg13 : FVec F S2048x512 .f32) (main_arg14 : FVec F S2048 .f32) (main_v13 : IVec S_ 1) (main_v16 : IVec S128x13 1) : IVec S_ 1 :=
  let main_c_5 : IVec S_ 1 := constantI S_ 1 1#1
  let main_v17 : IVec S_ 1 := (fun x v => Host.reduce IntOp.andi x v reducesTo_S128x13_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16x64x16 .f32) (main_arg1 : FVec F S128x3 .f32) (main_arg2 : FVec F S128 .f32) (main_arg3 : FVec F S128x13 .f32) (main_arg4 : FVec F S128 .f32) (main_arg5 : FVec F S256x128 .f32) (main_arg6 : FVec F S256 .f32) (main_arg7 : FVec F S512x256 .f32) (main_arg8 : FVec F S512 .f32) (main_arg9 : FVec F S1024x512 .f32) (main_arg10 : FVec F S1024 .f32) (main_arg11 : FVec F S512x2048 .f32) (main_arg12 : FVec F S512 .f32) (main_arg13 : FVec F S2048x512 .f32) (main_arg14 : FVec F S2048 .f32) : IVec S_ 1 :=
  let main_v0 : FVec F S16x64x16 .f32 := Host.absf main_arg0
  let main_cst : FVec F S_ .f32 := constant S_ .f32 0x7F800000#32
  let main_v1 : FVec F S16x64x16 .f32 := broadcastInDim S16x64x16 ![] bcast_S_S16x64x16 main_cst
  let main_v2 : IVec S16x64x16 1 := cmpf .olt main_v0 main_v1
  let main_c : IVec S_ 1 := constantI S_ 1 1#1
  let main_v3 : IVec S_ 1 := (fun x v => Host.reduce IntOp.andi x v reducesTo_S16x64x16_S_d0_1_2 h_S_) main_v2 main_c
  let main_v4 : FVec F S128x3 .f32 := Host.absf main_arg1
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x13 .f32 := Host.absf main_arg3
  let main_cst_4 : FVec F S_ .f32 := constant S_ .f32 0x7F800000#32
  let main_v15 : FVec F S128x13 .f32 := broadcastInDim S128x13 ![] bcast_S_S128x13 main_cst_4
  let main_v16 : IVec S128x13 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16x64x16 : Shape := ⟨3, ![16, 64, 16]⟩
abbrev S128x3 : Shape := ⟨2, ![128, 3]⟩
abbrev S128 : Shape := ⟨1, ![128]⟩
abbrev S128x13 : Shape := ⟨2, ![128, 13]⟩
abbrev S256x128 : Shape := ⟨2, ![256, 128]⟩
abbrev S256 : Shape := ⟨1, ![256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S512x2048 : Shape := ⟨2, ![512, 2048]⟩
abbrev S2048x512 : Shape := ⟨2, ![2048, 512]⟩
abbrev S2048 : Shape := ⟨1, ![2048]⟩
abbrev S16x1x2048 : Shape := ⟨3, ![16, 1, 2048]⟩
abbrev S1x64x16 : Shape := ⟨3, ![1, 64, 16]⟩
abbrev S1x1x2048 : Shape := ⟨3, ![1, 1, 2048]⟩
abbrev S64x16 : Shape := ⟨2, ![64, 16]⟩
abbrev S64x3 : Shape := ⟨2, ![64, 3]⟩
abbrev S64x13 : Shape := ⟨2, ![64, 13]⟩
abbrev S3x128 : Shape := ⟨2, ![3, 128]⟩
abbrev S64x128 : Shape := ⟨2, ![64, 128]⟩
abbrev S1x128 : Shape := ⟨2, ![1, 128]⟩
abbrev S13x128 : Shape := ⟨2, ![13, 128]⟩
abbrev S128x256 : Shape := ⟨2, ![128, 256]⟩
abbrev S64x256 : Shape := ⟨2, ![64, 256]⟩
abbrev S1x256 : Shape := ⟨2, ![1, 256]⟩
abbrev S256x512 : Shape := ⟨2, ![256, 512]⟩
abbrev S64x512 : Shape := ⟨2, ![64, 512]⟩
abbrev S1x512 : Shape := ⟨2, ![1, 512]⟩
abbrev S512x1024 : Shape := ⟨2, ![512, 1024]⟩
abbrev S64x1024 : Shape := ⟨2, ![64, 1024]⟩
abbrev S1x1024 : Shape := ⟨2, ![1, 1024]⟩
abbrev S64x1x512 : Shape := ⟨3, ![64, 1, 512]⟩
abbrev S1x64x512 : Shape := ⟨3, ![1, 64, 512]⟩
abbrev S64x64x512 : Shape := ⟨3, ![64, 64, 512]⟩
abbrev S1x1x512 : Shape := ⟨3, ![1, 1, 512]⟩
abbrev S4096x512 : Shape := ⟨2, ![4096, 512]⟩
abbrev S1x2048 : Shape := ⟨2, ![1, 2048]⟩
abbrev S16x2048 : Shape := ⟨2, ![16, 2048]⟩

abbrev nBuf : Space → Nat
  | .hbm => 24
  | .vmem => 18
  | .smem => 0
  | _ => 0

abbrev bufTy : (tb : Table) → Fin (tcTables nBuf tb) → BufTy
  | .hbm, ⟨0, _⟩ => ⟨S16x64x16, .f32⟩
  | .hbm, ⟨1, _⟩ => ⟨S128x3, .f32⟩
  | .hbm, ⟨2, _⟩ => ⟨S128, .f32⟩
  | .hbm, ⟨3, _⟩ => ⟨S128x13, .f32⟩
  | .hbm, ⟨4, _⟩ => ⟨S128, .f32⟩
  | .hbm, ⟨5, _⟩ => ⟨S256x128, .f32⟩
  | .hbm, ⟨6, _⟩ => ⟨S256, .f32⟩
  | .hbm, ⟨7, _⟩ => ⟨S512x256, .f32⟩
  | .hbm, ⟨8, _⟩ => ⟨S512, .f32⟩
  | .hbm, ⟨9, _⟩ => ⟨S1024x512, .f32⟩
  | .hbm, ⟨10, _⟩ => ⟨S1024, .f32⟩
  | .hbm, ⟨11, _⟩ => ⟨S512x2048, .f32⟩
  | .hbm, ⟨12, _⟩ => ⟨S512, .f32⟩
  | .hbm, ⟨13, _⟩ => ⟨S2048x512, .f32⟩
  | .hbm, ⟨14, _⟩ => ⟨S2048, .f32⟩
  | .hbm, ⟨15, _⟩ => ⟨S128x3, .bf16⟩
  | .hbm, ⟨16, _⟩ => ⟨S128x13, .bf16⟩
  | .hbm, ⟨17, _⟩ => ⟨S256x128, .bf16⟩
  | .hbm, ⟨18, _⟩ => ⟨S512x256, .bf16⟩
  | .hbm, ⟨19, _⟩ => ⟨S1024x512, .bf16⟩
  | .hbm, ⟨20, _⟩ => ⟨S512x2048, .bf16⟩
  | .hbm, ⟨21, _⟩ => ⟨S2048x512, .bf16⟩
  | .hbm, ⟨22, _⟩ => ⟨S16x1x2048, .f32⟩
  | .hbm, ⟨23, _⟩ => ⟨S16x2048, .f32⟩
  | .local _ .vmem, ⟨0, _⟩ => ⟨S1x64x16, .f32⟩
  | .local _ .vmem, ⟨1, _⟩ => ⟨S1x64x16, .f32⟩
  | .local _ .vmem, ⟨2, _⟩ => ⟨S128x3, .bf16⟩
  | .local _ .vmem, ⟨3, _⟩ => ⟨S128, .f32⟩
  | .local _ .vmem, ⟨4, _⟩ => ⟨S128x13, .bf16⟩
  | .local _ .vmem, ⟨5, _⟩ => ⟨S128, .f32⟩
  | .local _ .vmem, ⟨6, _⟩ => ⟨S256x128, .bf16⟩
  | .local _ .vmem, ⟨7, _⟩ => ⟨S256, .f32⟩
  | .local _ .vmem, ⟨8, _⟩ => ⟨S512x256, .bf16⟩
  | .local _ .vmem, ⟨9, _⟩ => ⟨S512, .f32⟩
  | .local _ .vmem, ⟨10, _⟩ => ⟨S1024x512, .bf16⟩
  | .local _ .vmem, ⟨11, _⟩ => ⟨S1024, .f32⟩
  | .local _ .vmem, ⟨12, _⟩ => ⟨S512x2048, .bf16⟩
  | .local _ .vmem, ⟨13, _⟩ => ⟨S512, .f32⟩
  | .local _ .vmem, ⟨14, _⟩ => ⟨S2048x512, .bf16⟩
  | .local _ .vmem, ⟨15, _⟩ => ⟨S2048, .f32⟩
  | .local _ .vmem, ⟨16, _⟩ => ⟨S1x1x2048, .f32⟩
  | .local _ .vmem, ⟨17, _⟩ => ⟨S1x1x2048, .f32⟩
  | _, _ => ⟨S16x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x13 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bitsLt_bf16_f32 : FTy.bits .bf16 < FTy.bits .f32
  inb_S1x64x16_S1x64x16_0_0_0 : ∀ a, (![0, 0, 0] : Fin 3 → Nat) a + S1x64x16.size a ≤ S1x64x16.size a
  h_S1x64x16 : 0 < S1x64x16.numel
  shapeCasts_S1x64x16_S64x16 : S1x64x16.ShapeCasts S64x16
  slices_S64x16_o0_0_S64x3 : S64x16.Slices ![0, 0] S64x3
  slices_S64x16_o0_3_S64x13 : S64x16.Slices ![0, 3] S64x13
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S128x13_S128x13_0_0 : ∀ a, (![0, 0] : Fin 2 → Nat) a + S128x13.size a ≤ S128x13.size a
  h_S128x13 : 0 < S128x13.numel
  shapeCasts_S128x13_S128x13 : S128x13.ShapeCasts S128x13
  transposes_S128x3_p1_0_S3x128 : S128x3.Transposes [1, 0] S3x128
  inb_S128_S128_0 : ∀ a, (![0] : Fin 1 → Nat) a + S128.size a ≤ S128.size a
  h_S128 : 0 < S128.numel
  shapeCasts_S128_S1x128 : S128.ShapeCasts S1x128
  broadcasts_S1x128_S64x128 : S1x128.Broadcasts S64x128
  transposes_S128x13_p1_0_S13x128 : S128x13.Transposes [1, 0] S13x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S256x128_p1_0_S128x256 : S256x128.Transposes [1, 0] S128x256
  inb_S256_S256_0 : ∀ a, (![0] : Fin 1 → Nat) a + S256.size a ≤ S256.size a
  h_S256 : 0 < S256.numel
  shapeCasts_S256_S1x256 : S256.ShapeCasts S1x256
  broadcasts_S1x256_S64x256 : S1x256.Broadcasts S64x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S512x2048_o0_0_S512x1024 : S512x2048.Slices ![0, 0] S512x1024
  slices_S512x2048_o0_1024_S512x1024 : S512x2048.Slices ![0, 1024] S512x1024
  transposes_S512x1024_p1_0_S1024x512 : S512x1024.Transposes [1, 0] S1024x512
  shapeCasts_S64x512_S64x1x512 : S64x512.ShapeCasts S64x1x512
  shapeCasts_S64x512_S1x64x512 : S64x512.ShapeCasts S1x64x512
  broadcasts_S64x1x512_S64x64x512 : S64x1x512.Broadcasts S64x64x512
  broadcasts_S1x64x512_S64x64x512 : S1x64x512.Broadcasts S64x64x512
  shapeCasts_S512_S1x1x512 : S512.ShapeCasts S1x1x512
  broadcasts_S1x1x512_S64x64x512 : S1x1x512.Broadcasts S64x64x512
  shapeCasts_S64x64x512_S4096x512 : S64x64x512.ShapeCasts S4096x512
  reduces_S4096x512_S512 : S4096x512.Reduces [0] S512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048_S2048_0 : ∀ a, (![0] : Fin 1 → Nat) a + S2048.size a ≤ S2048.size a
  h_S2048 : 0 < S2048.numel
  transposes_S2048x512_p1_0_S512x2048 : S2048x512.Transposes [1, 0] S512x2048
  shapeCasts_S2048_S1x2048 : S2048.ShapeCasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S16x1x2048_S16x2048 : S16x1x2048.ShapeCasts S16x2048
  dot_S64x3_S3x128_S64x128_1_0_0_1_n_n_wf : DotDims.WF S64x3 S3x128 S64x128 [1] [0] [0] [1] [] []
  dot_S64x13_S13x128_S64x128_1_0_0_1_n_n_wf : DotDims.WF S64x13 S13x128 S64x128 [1] [0] [0] [1] [] []
  dot_S64x128_S128x256_S64x256_1_0_0_1_n_n_wf : DotDims.WF S64x128 S128x256 S64x256 [1] [0] [0] [1] [] []
  dot_S64x256_S256x512_S64x512_1_0_0_1_n_n_wf : DotDims.WF S64x256 S256x512 S64x512 [1] [0] [0] [1] [] []
  dot_S64x512_S512x1024_S64x1024_1_0_0_1_n_n_wf : DotDims.WF S64x512 S512x1024 S64x1024 [1] [0] [0] [1] [] []
  dot_S64x1024_S1024x512_S64x512_1_0_0_1_n_n_wf : DotDims.WF S64x1024 S1024x512 S64x512 [1] [0] [0] [1] [] []
  dot_S1x512_S512x2048_S1x2048_1_0_0_1_n_n_wf : DotDims.WF S1x512 S512x2048 S1x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16.size a ≤ S16x64x16.size a
  hwx0_0 : ∀ i : grid0.Coords, EltTy.bits .f32 = 32 ∨ (Rect.block (s := S16x64x16) S1x64x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S128x3.size a
  hwx0_1 : ∀ i : grid0.Coords, EltTy.bits .bf16 = 32 ∨ (Rect.block (s := S128x3) S128x3.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x13.size a ≤ S128x13.size a
  hwx0_3 : ∀ i : grid0.Coords, EltTy.bits .bf16 = 32 ∨ (Rect.block (s := S128x13) S128x13.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S1024x512.size a
  hwx0_9 : ∀ i : grid0.Coords, EltTy.bits .bf16 = 32 ∨ (Rect.block (s := S1024x512) S1024x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x2048.size a ≤ S512x2048.size a
  hwx0_11 : ∀ i : grid0.Coords, EltTy.bits .bf16 = 32 ∨ (Rect.block (s := S512x2048) S512x2048.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2048x512.size a ≤ S2048x512.size a
  hwx0_13 : ∀ i : grid0.Coords, EltTy.bits .bf16 = 32 ∨ (Rect.block (s := S2048x512) S2048x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2048.size a ≤ S2048.size a
  hwx0_14 : ∀ i : grid0.Coords, EltTy.bits .f32 = 32 ∨ (Rect.block (s := S2048) S2048.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1x2048.size a ≤ S16x1x2048.size a
  hwx0_15 : ∀ i : grid0.Coords, EltTy.bits .f32 = 32 ∨ (Rect.block (s := S16x1x2048) S1x1x2048.size (cc0_transform_15 i) (hinb0_15 i)).WholeWords (EltTy.packing .f32)

variable [Facts₀]

def dot_S64x3_S3x128_S64x128_1_0_0_1_n_n : DotDims S64x3 S3x128 S64x128 where
  lhsContracting := [1]
  rhsContracting := [0]
  lhsNonContracting := [0]
  rhsNonContracting := [1]
  lhsBatch := []
  rhsBatch := []
  wf := dot_S64x3_S3x128_S64x128_1_0_0_1_n_n_wf
def dot_S64x13_S13x128_S64x128_1_0_0_1_n_n : DotDims S64x13 S13x128 S64x128 where
  lhsContracting := [1]
  rhsContracting := [0]
  lhsNonContracting := [0]
  rhsNonContracting := [1]
  lhsBatch := []
  rhsBatch := []
  wf := dot_S64x13_S13x128_S64x128_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S1x512_S512x2048_S1x2048_1_0_0_1_n_n : DotDims S1x512 S512x2048 S1x2048 where
  lhsContracting := [1]
  rhsContracting := [0]
  lhsNonContracting := [0]
  rhsNonContracting := [1]
  lhsBatch := []
  rhsBatch := []
  wf := dot_S1x512_S512x2048_S1x2048_1_0_0_1_n_n_wf

abbrev win0_0 : Pipeline.Window sig grid0 :=
  Pipeline.Window.ofSpec (Memref.whole main_arg0) S1x64x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x13.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1024x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S512x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S2048x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S2048.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S1x1x2048.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S16x64x16 : Shape := ⟨3, ![16, 64, 16]⟩
abbrev S128x3 : Shape := ⟨2, ![128, 3]⟩
abbrev S128 : Shape := ⟨1, ![128]⟩
abbrev S128x13 : Shape := ⟨2, ![128, 13]⟩
abbrev S256x128 : Shape := ⟨2, ![256, 128]⟩
abbrev S256 : Shape := ⟨1, ![256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S512x2048 : Shape := ⟨2, ![512, 2048]⟩
abbrev S2048x512 : Shape := ⟨2, ![2048, 512]⟩
abbrev S2048 : Shape := ⟨1, ![2048]⟩
abbrev S16x64x3 : Shape := ⟨3, ![16, 64, 3]⟩
abbrev S16x64x13 : Shape := ⟨3, ![16, 64, 13]⟩
abbrev S16x64x128 : Shape := ⟨3, ![16, 64, 128]⟩
abbrev S1x1x128 : Shape := ⟨3, ![1, 1, 128]⟩
abbrev S_ : Shape := ⟨0, ![]⟩
abbrev S16x64x256 : Shape := ⟨3, ![16, 64, 256]⟩
abbrev S1x1x256 : Shape := ⟨3, ![1, 1, 256]⟩
abbrev S16x64x512 : Shape := ⟨3, ![16, 64, 512]⟩
abbrev S1x1x512 : Shape := ⟨3, ![1, 1, 512]⟩
abbrev S16x64x1024 : Shape := ⟨3, ![16, 64, 1024]⟩
abbrev S1x1x1024 : Shape := ⟨3, ![1, 1, 1024]⟩
abbrev S512x1024 : Shape := ⟨2, ![512, 1024]⟩
abbrev S16x64x1x512 : Shape := ⟨4, ![16, 64, 1, 512]⟩
abbrev S16x1x64x512 : Shape := ⟨4, ![16, 1, 64, 512]⟩
abbrev S16x64x64x512 : Shape := ⟨4, ![16, 64, 64, 512]⟩
abbrev S1x1x1x512 : Shape := ⟨4, ![1, 1, 1, 512]⟩
abbrev S16x512 : Shape := ⟨2, ![16, 512]⟩
abbrev S16x2048 : Shape := ⟨2, ![16, 2048]⟩
abbrev S1x2048 : Shape := ⟨2, ![1, 2048]⟩

abbrev nBuf : Space → Nat
  | .hbm => 77
  | .vmem => 0
  | .smem => 0
  | _ => 0

abbrev bufTy : (tb : Table) → Fin (tcTables nBuf tb) → BufTy
  | .hbm, ⟨0, _⟩ => ⟨S16x64x16, .f32⟩
  | .hbm, ⟨1, _⟩ => ⟨S128x3, .f32⟩
  | .hbm, ⟨2, _⟩ => ⟨S128, .f32⟩
  | .hbm, ⟨3, _⟩ => ⟨S128x13, .f32⟩
  | .hbm, ⟨4, _⟩ => ⟨S128, .f32⟩
  | .hbm, ⟨5, _⟩ => ⟨S256x128, .f32⟩
  | .hbm, ⟨6, _⟩ => ⟨S256, .f32⟩
  | .hbm, ⟨7, _⟩ => ⟨S512x256, .f32⟩
  | .hbm, ⟨8, _⟩ => ⟨S512, .f32⟩
  | .hbm, ⟨9, _⟩ => ⟨S1024x512, .f32⟩
  | .hbm, ⟨10, _⟩ => ⟨S1024, .f32⟩
  | .hbm, ⟨11, _⟩ => ⟨S512x2048, .f32⟩
  | .hbm, ⟨12, _⟩ => ⟨S512, .f32⟩
  | .hbm, ⟨13, _⟩ => ⟨S2048x512, .f32⟩
  | .hbm, ⟨14, _⟩ => ⟨S2048, .f32⟩
  | .hbm, ⟨15, _⟩ => ⟨S16x64x3, .f32⟩
  | .hbm, ⟨16, _⟩ => ⟨S16x64x13, .f32⟩
  | .hbm, ⟨17, _⟩ => ⟨S16x64x128, .f32⟩
  | .hbm, ⟨18, _⟩ => ⟨S1x1x128, .f32⟩
  | .hbm, ⟨19, _⟩ => ⟨S16x64x128, .f32⟩
  | .hbm, ⟨20, _⟩ => ⟨S16x64x128, .f32⟩
  | .hbm, ⟨21, _⟩ => ⟨S_, .f32⟩
  | .hbm, ⟨22, _⟩ => ⟨S16x64x128, .f32⟩
  | .hbm, ⟨23, _⟩ => ⟨S16x64x128, .f32⟩
  | .hbm, ⟨24, _⟩ => ⟨S16x64x128, .f32⟩
  | .hbm, ⟨25, _⟩ => ⟨S1x1x128, .f32⟩
  | .hbm, ⟨26, _⟩ => ⟨S16x64x128, .f32⟩
  | .hbm, ⟨27, _⟩ => ⟨S16x64x128, .f32⟩
  | .hbm, ⟨28, _⟩ => ⟨S_, .f32⟩
  | .hbm, ⟨29, _⟩ => ⟨S16x64x128, .f32⟩
  | .hbm, ⟨30, _⟩ => ⟨S16x64x128, .f32⟩
  | .hbm, ⟨31, _⟩ => ⟨S16x64x128, .f32⟩
  | .hbm, ⟨32, _⟩ => ⟨S16x64x256, .f32⟩
  | .hbm, ⟨33, _⟩ => ⟨S1x1x256, .f32⟩
  | .hbm, ⟨34, _⟩ => ⟨S16x64x256, .f32⟩
  | .hbm, ⟨35, _⟩ => ⟨S16x64x256, .f32⟩
  | .hbm, ⟨36, _⟩ => ⟨S_, .f32⟩
  | .hbm, ⟨37, _⟩ => ⟨S16x64x256, .f32⟩
  | .hbm, ⟨38, _⟩ => ⟨S16x64x256, .f32⟩
  | .hbm, ⟨39, _⟩ => ⟨S16x64x512, .f32⟩
  | .hbm, ⟨40, _⟩ => ⟨S1x1x512, .f32⟩
  | .hbm, ⟨41, _⟩ => ⟨S16x64x512, .f32⟩
  | .hbm, ⟨42, _⟩ => ⟨S16x64x512, .f32⟩
  | .hbm, ⟨43, _⟩ => ⟨S_, .f32⟩
  | .hbm, ⟨44, _⟩ => ⟨S16x64x512, .f32⟩
  | .hbm, ⟨45, _⟩ => ⟨S16x64x512, .f32⟩
  | .hbm, ⟨46, _⟩ => ⟨S16x64x1024, .f32⟩
  | .hbm, ⟨47, _⟩ => ⟨S1x1x1024, .f32⟩
  | .hbm, ⟨48, _⟩ => ⟨S16x64x1024, .f32⟩
  | .hbm, ⟨49, _⟩ => ⟨S16x64x1024, .f32⟩
  | .hbm, ⟨50, _⟩ => ⟨S_, .f32⟩
  | .hbm, ⟨51, _⟩ => ⟨S16x64x1024, .f32⟩
  | .hbm, ⟨52, _⟩ => ⟨S16x64x1024, .f32⟩
  | .hbm, ⟨53, _⟩ => ⟨S512x1024, .f32⟩
  | .hbm, ⟨54, _⟩ => ⟨S512x1024, .f32⟩
  | .hbm, ⟨55, _⟩ => ⟨S16x64x512, .f32⟩
  | .hbm, ⟨56, _⟩ => ⟨S16x64x512, .f32⟩
  | .hbm, ⟨57, _⟩ => ⟨S16x64x1x512, .f32⟩
  | .hbm, ⟨58, _⟩ => ⟨S16x1x64x512, .f32⟩
  | .hbm, ⟨59, _⟩ => ⟨S16x64x64x512, .f32⟩
  | .hbm, ⟨60, _⟩ => ⟨S16x64x64x512, .f32⟩
  | .hbm, ⟨61, _⟩ => ⟨S16x64x64x512, .f32⟩
  | .hbm, ⟨62, _⟩ => ⟨S1x1x1x512, .f32⟩
  | .hbm, ⟨63, _⟩ => ⟨S16x64x64x512, .f32⟩
  | .hbm, ⟨64, _⟩ => ⟨S16x64x64x512, .f32⟩
  | .hbm, ⟨65, _⟩ => ⟨S_, .f32⟩
  | .hbm, ⟨66, _⟩ => ⟨S16x64x64x512, .f32⟩
  | .hbm, ⟨67, _⟩ => ⟨S16x64x64x512, .f32⟩
  | .hbm, ⟨68, _⟩ => ⟨S_, .f32⟩
  | .hbm, ⟨69, _⟩ => ⟨S16x512, .f32⟩
  | .hbm, ⟨70, _⟩ => ⟨S_, .f32⟩
  | .hbm, ⟨71, _⟩ => ⟨S16x512, .f32⟩
  | .hbm, ⟨72, _⟩ => ⟨S16x512, .f32⟩
  | .hbm, ⟨73, _⟩ => ⟨S16x2048, .f32⟩
  | .hbm, ⟨74, _⟩ => ⟨S1x2048, .f32⟩
  | .hbm, ⟨75, _⟩ => ⟨S16x2048, .f32⟩
  | .hbm, ⟨76, _⟩ => ⟨S16x2048, .f32⟩
  | _, _ => ⟨S16x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call0_cst : Ref sig .tc := ⟨.hbm, 21, rfl⟩
abbrev main_call0_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_cst : Ref sig .tc := ⟨.hbm, 28, rfl⟩
abbrev main_call1_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call2_cst : Ref sig .tc := ⟨.hbm, 36, rfl⟩
abbrev main_call2_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call3_cst : Ref sig .tc := ⟨.hbm, 43, rfl⟩
abbrev main_call3_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call4_cst : Ref sig .tc := ⟨.hbm, 50, rfl⟩
abbrev main_call4_v0 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call5_cst : Ref sig .tc := ⟨.hbm, 65, rfl⟩
abbrev main_call5_v0 : Ref sig .tc := ⟨.hbm, 66, rfl⟩
abbrev main_v40 : Ref sig .tc := ⟨.hbm, 67, rfl⟩
abbrev main_cst : Ref sig .tc := ⟨.hbm, 68, rfl⟩
abbrev main_v41 : Ref sig .tc := ⟨.hbm, 69, rfl⟩
abbrev main_cst_0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩

abbrev nD : Nat := 1
abbrev τ : Topo := Topo.v7x

variable {F : FTy → Type} [FloatOps F]

class Facts₀ : Prop where
  slices_S16x64x16_S16x64x3_0_0_0 : S16x64x16.Slices ![0, 0, 0] S16x64x3
  slices_S16x64x16_S16x64x13_0_0_3 : S16x64x16.Slices ![0, 0, 3] S16x64x13
  bcast_S128_S1x1x128_2 : S128.BroadcastsInDim S1x1x128 (![2] : Fin 1 → Fin S1x1x128.rank)
  bcast_S1x1x128_S16x64x128_0_1_2 : S1x1x128.BroadcastsInDim S16x64x128 (![0, 1, 2] : Fin 3 → Fin S16x64x128.rank)
  bcast_S_S16x64x128 : S_.BroadcastsInDim S16x64x128 (![] : Fin 0 → Fin S16x64x128.rank)
  bcast_S256_S1x1x256_2 : S256.BroadcastsInDim S1x1x256 (![2] : Fin 1 → Fin S1x1x256.rank)
  bcast_S1x1x256_S16x64x256_0_1_2 : S1x1x256.BroadcastsInDim S16x64x256 (![0, 1, 2] : Fin 3 → Fin S16x64x256.rank)
  bcast_S_S16x64x256 : S_.BroadcastsInDim S16x64x256 (![] : Fin 0 → Fin S16x64x256.rank)
  bcast_S512_S1x1x512_2 : S512.BroadcastsInDim S1x1x512 (![2] : Fin 1 → Fin S1x1x512.rank)
  bcast_S1x1x512_S16x64x512_0_1_2 : S1x1x512.BroadcastsInDim S16x64x512 (![0, 1, 2] : Fin 3 → Fin S16x64x512.rank)
  bcast_S_S16x64x512 : S_.BroadcastsInDim S16x64x512 (![] : Fin 0 → Fin S16x64x512.rank)
  bcast_S1024_S1x1x1024_2 : S1024.BroadcastsInDim S1x1x1024 (![2] : Fin 1 → Fin S1x1x1024.rank)
  bcast_S1x1x1024_S16x64x1024_0_1_2 : S1x1x1024.BroadcastsInDim S16x64x1024 (![0, 1, 2] : Fin 3 → Fin S16x64x1024.rank)
  bcast_S_S16x64x1024 : S_.BroadcastsInDim S16x64x1024 (![] : Fin 0 → Fin S16x64x1024.rank)
  slices_S512x2048_S512x1024_0_0 : S512x2048.Slices ![0, 0] S512x1024
  slices_S512x2048_S512x1024_0_1024 : S512x2048.Slices ![0, 1024] S512x1024
  bcast_S16x64x512_S16x64x1x512_0_1_3 : S16x64x512.BroadcastsInDim S16x64x1x512 (![0, 1, 3] : Fin 3 → Fin S16x64x1x512.rank)
  bcast_S16x64x512_S16x1x64x512_0_2_3 : S16x64x512.BroadcastsInDim S16x1x64x512 (![0, 2, 3] : Fin 3 → Fin S16x1x64x512.rank)
  bcast_S16x64x1x512_S16x64x64x512_0_1_2_3 : S16x64x1x512.BroadcastsInDim S16x64x64x512 (![0, 1, 2, 3] : Fin 4 → Fin S16x64x64x512.rank)
  bcast_S16x1x64x512_S16x64x64x512_0_1_2_3 : S16x1x64x512.BroadcastsInDim S16x64x64x512 (![0, 1, 2, 3] : Fin 4 → Fin S16x64x64x512.rank)
  bcast_S512_S1x1x1x512_3 : S512.BroadcastsInDim S1x1x1x512 (![3] : Fin 1 → Fin S1x1x1x512.rank)
  bcast_S1x1x1x512_S16x64x64x512_0_1_2_3 : S1x1x1x512.BroadcastsInDim S16x64x64x512 (![0, 1, 2, 3] : Fin 4 → Fin S16x64x64x512.rank)
  bcast_S_S16x64x64x512 : S_.BroadcastsInDim S16x64x64x512 (![] : Fin 0 → Fin S16x64x64x512.rank)
  reducesTo_S16x64x64x512_S16x512_d1_2 : S16x64x64x512.ReducesTo [1, 2] S16x512
  h_S_ : 0 < S_.numel
  bcast_S_S16x512 : S_.BroadcastsInDim S16x512 (![] : Fin 0 → Fin S16x512.rank)
  bcast_S2048_S1x2048_1 : S2048.BroadcastsInDim S1x2048 (![1] : Fin 1 → Fin S1x2048.rank)
  bcast_S1x2048_S16x2048_0_1 : S1x2048.BroadcastsInDim S16x2048 (![0, 1] : Fin 2 → Fin S16x2048.rank)
  dot_S16x64x3_S128x3_S16x64x128_2_1_01_0_n_n_wf : DotDims.WF S16x64x3 S128x3 S16x64x128 [2] [1] [0, 1] [0] [] []
  dot_S16x64x13_S128x13_S16x64x128_2_1_01_0_n_n_wf : DotDims.WF S16x64x13 S128x13 S16x64x128 [2] [1] [0, 1] [0] [] []
  dot_S16x64x128_S256x128_S16x64x256_2_1_01_0_n_n_wf : DotDims.WF S16x64x128 S256x128 S16x64x256 [2] [1] [0, 1] [0] [] []
  dot_S16x64x256_S512x256_S16x64x512_2_1_01_0_n_n_wf : DotDims.WF S16x64x256 S512x256 S16x64x512 [2] [1] [0, 1] [0] [] []
  dot_S16x64x512_S1024x512_S16x64x1024_2_1_01_0_n_n_wf : DotDims.WF S16x64x512 S1024x512 S16x64x1024 [2] [1] [0, 1] [0] [] []
  dot_S16x64x1024_S512x1024_S16x64x512_2_1_01_0_n_n_wf : DotDims.WF S16x64x1024 S512x1024 S16x64x512 [2] [1] [0, 1] [0] [] []
  dot_S16x512_S2048x512_S16x2048_1_1_0_0_n_n_wf : DotDims.WF S16x512 S2048x512 S16x2048 [1] [1] [0] [0] [] []

variable [Facts₀]

def dot_S16x64x3_S128x3_S16x64x128_2_1_01_0_n_n : DotDims S16x64x3 S128x3 S16x64x128 where
  lhsContracting := [2]
  rhsContracting := [1]
  lhsNonContracting := [0, 1]
  rhsNonContracting := [0]
  lhsBatch := []
  rhsBatch := []
  wf := dot_S16x64x3_S128x3_S16x64x128_2_1_01_0_n_n_wf
def dot_S16x64x13_S128x13_S16x64x128_2_1_01_0_n_n : DotDims S16x64x13 S128x13 S16x64x128 where
  lhsContracting := [2]
  rhsContracting := [1]
  lhsNonContracting := [0, 1]
  rhsNonContracting := [0]
  lhsBatch := []
  rhsBatch := []
  wf := dot_S16x64x13_S128x13_S16x64x128_2_1_01_0_n_n_wf
def dot_S16x64x128_S256x128_S16x64x256_2_1_01_0_n_n : DotDims S16x64x128 S256x128 S16x64x256 where
  lhsContracting := [2]
  rhsContracting := [1]
  lhsNonContracting := [0, 1]
  rhsNonContracting := [0]
  lhsBatch := []
  rhsBatch := []
  wf := dot_S16x64x128_S256x128_S16x64x256_2_1_01_0_n_n_wf
def dot_S16x64x256_S512x256_S16x64x512_2_1_01_0_n_n : DotDims S16x64x256 S512x256 S16x64x512 where
  lhsContracting := [2]
  rhsContracting := [1]
  lhsNonContracting := [0, 1]
  rhsNonContracting := [0]
  lhsBatch := []
  rhsBatch := []
  wf := dot_S16x64x256_S512x256_S16x64x512_2_1_01_0_n_n_wf
def dot_S16x64x512_S1024x512_S16x64x1024_2_1_01_0_n_n : DotDims S16x64x512 S1024x512 S16x64x1024 where
  lhsContracting := [2]
  rhsContracting := [1]
  lhsNonContracting := [0, 1]
  rhsNonContracting := [0]
  lhsBatch := []
  rhsBatch := []
  wf := dot_S16x64x512_S1024x512_S16x64x1024_2_1_01_0_n_n_wf
def dot_S16x64x1024_S512x1024_S16x64x512_2_1_01_0_n_n : DotDims S16x64x1024 S512x1024 S16x64x512 where
  lhsContracting := [2]
  rhsContracting := [1]
  lhsNonContracting := [0, 1]
  rhsNonContracting := [0]
  lhsBatch := []
  rhsBatch := []
  wf := dot_S16x64x1024_S512x1024_S16x64x512_2_1_01_0_n_n_wf
def dot_S16x512_S2048x512_S16x2048_1_1_0_0_n_n : DotDims S16x512 S2048x512 S16x2048 where
  lhsContracting := [1]
  rhsContracting := [1]
  lhsNonContracting := [0]
  rhsNonContracting := [0]
  lhsBatch := []
  rhsBatch := []
  wf := dot_S16x512_S2048x512_S16x2048_1_1_0_0_n_n_wf

class Facts : Prop extends Facts₀ where

variable [Facts]
-- ==== Proof.Net.lean ====
/-
  The function both programs compute, stated once over the extended reals.

  One sample of the batch is a cloud of 64 points, each with 16 coordinates: the first 3 are a position, the last 13 a
  label. A point is embedded by two rectified affine maps (one per group of coordinates) whose results are added, and
  refined by three more rectified affine layers into 1024 features. For every ORDERED pair (i, j) of points the 512
  pair features are the rectifier of

      (second half of w1 applied to point i) + (first half of w1 applied to point j) + b1,

  the pair features are averaged over all 64 · 64 pairs, and a last affine map takes the 512 means to the 2048 outputs.
  Every sum here is a finite sum in the commutative monoid of the extended reals, so its value does not depend on the
  order or the grouping of its terms: that is the only fact the comparison of the two programs uses.
-/
import Idealize.ShloMosaic.PureOps.Ideal
import Idealize.ShloMosaic.Lib.ValueIdx

noncomputable section

namespace Cert.PairNet

open Idealize.ShloMosaic Idealize.ShloMosaic.ValueIdx

/-- The rectifier on the extended reals. -/
def relu (x : EReal) : EReal := max x 0

/-- A linear map: output `o` is the inner product of the input with row `o` of `W`. -/
def linear {K N : ℕ} (W : Fin N → Fin K → EReal) (x : Fin K → EReal) (o : Fin N) : EReal :=
  ∑ k : Fin K, x k * W o k

/-- An affine map: the linear map plus the bias `β`. -/
def affine {K N : ℕ} (W : Fin N → Fin K → EReal) (β : Fin N → EReal) (x : Fin K → EReal) (o : Fin N) : EReal :=
  linear W x o + β o

/-- A rectified affine layer. -/
def layer {K N : ℕ} (W : Fin N → Fin K → EReal) (β : Fin N → EReal) (x : Fin K → EReal) (o : Fin N) : EReal :=
  relu (affine W β x o)

/-- The network's parameters, each a matrix of rows (one per output) or a bias vector. `w1a` and `w1b` are the two
    halves of the pair layer's matrix: its columns 0–1023 and 1024–2047. -/
structure Weights where
  e1w : Fin 128 → Fin 3 → EReal
  e1b : Fin 128 → EReal
  e2w : Fin 128 → Fin 13 → EReal
  e2b : Fin 128 → EReal
  r1w : Fin 256 → Fin 128 → EReal
  r1b : Fin 256 → EReal
  r2w : Fin 512 → Fin 256 → EReal
  r2b : Fin 512 → EReal
  r3w : Fin 1024 → Fin 512 → EReal
  r3b : Fin 1024 → EReal
  w1a : Fin 512 → Fin 1024 → EReal
  w1b : Fin 512 → Fin 1024 → EReal
  b1 : Fin 512 → EReal
  w2 : Fin 2048 → Fin 512 → EReal
  b2 : Fin 2048 → EReal

/-- A point's position: its first three coordinates. -/
def position (p : Fin 16 → EReal) (k : Fin 3) : EReal := p ⟨k.val, by have := k.isLt; omega⟩

/-- A point's label: its last thirteen coordinates. -/
def label (p : Fin 16 → EReal) (k : Fin 13) : EReal := p ⟨3 + k.val, by have := k.isLt; omega⟩

/-- The embedding of one point: the two rectified affine maps added. -/
def embed (P : Weights) (p : Fin 16 → EReal) (o : Fin 128) : EReal :=
  layer P.e1w P.e1b (position p) o + layer P.e2w P.e2b (label p) o

/-- The 1024 features of one point. -/
def feature (P : Weights) (p : Fin 16 → EReal) : Fin 1024 → EReal :=
  layer P.r3w P.r3b (layer P.r2w P.r2b (layer P.r1w P.r1b (embed P p)))

/-- The number the pair sum is divided by: the f32 word of 4096.0, as both programs spell it. -/
def pairCount : EReal := Ideal.ofBits .f32 0x45800000#32

/-- The pair features of the ordered pair (i, j), from the two points' features. -/
def pairFeature (P : Weights) (fi fj : Fin 1024 → EReal) (o : Fin 512) : EReal :=
  relu ((linear P.w1b fi o + linear P.w1a fj o) + P.b1 o)

/-- The sum of the pair features over all ordered pairs. -/
def pairSum (P : Weights) (f : Fin 64 → Fin 1024 → EReal) (o : Fin 512) : EReal :=
  ∑ i : Fin 64, ∑ j : Fin 64, pairFeature P (f i) (f j) o

/-- Their mean. -/
def pairMean (P : Weights) (f : Fin 64 → Fin 1024 → EReal) (o : Fin 512) : EReal :=
  Ideal.div (pairSum P f o) pairCount

/-- The whole network on one sample. -/
def net (P : Weights) (x : Fin 64 → Fin 16 → EReal) : Fin 2048 → EReal :=
  affine P.w2 P.b2 (pairMean P fun n => feature P (x n))

/-- The parameters read off the fifteen argument arrays' fourteen parameter arrays, element by element. -/
def weightsOf
    (e1w : (⟨2, ![128, 3]⟩ : Shape).Idx → EReal) (e1b : (⟨1, ![128]⟩ : Shape).Idx → EReal)
    (e2w : (⟨2, ![128, 13]⟩ : Shape).Idx → EReal) (e2b : (⟨1, ![128]⟩ : Shape).Idx → EReal)
    (r1w : (⟨2, ![256, 128]⟩ : Shape).Idx → EReal) (r1b : (⟨1, ![256]⟩ : Shape).Idx → EReal)
    (r2w : (⟨2, ![512, 256]⟩ : Shape).Idx → EReal) (r2b : (⟨1, ![512]⟩ : Shape).Idx → EReal)
    (r3w : (⟨2, ![1024, 512]⟩ : Shape).Idx → EReal) (r3b : (⟨1, ![1024]⟩ : Shape).Idx → EReal)
    (w1 : (⟨2, ![512, 2048]⟩ : Shape).Idx → EReal) (b1 : (⟨1, ![512]⟩ : Shape).Idx → EReal)
    (w2 : (⟨2, ![2048, 512]⟩ : Shape).Idx → EReal) (b2 : (⟨1, ![2048]⟩ : Shape).Idx → EReal) : Weights where
  e1w o k := e1w (ix2 o k)
  e1b o := e1b (ix1 o)
  e2w o k := e2w (ix2 o k)
  e2b o := e2b (ix1 o)
  r1w o k := r1w (ix2 o k)
  r1b o := r1b (ix1 o)
  r2w o k := r2w (ix2 o k)
  r2b o := r2b (ix1 o)
  r3w o k := r3w (ix2 o k)
  r3b o := r3b (ix1 o)
  w1a o k := w1 (ix2 o (⟨k.val, by have := k.isLt; omega⟩ : Fin 2048))
  w1b o k := w1 (ix2 o (⟨1024 + k.val, by have := k.isLt; omega⟩ : Fin 2048))
  b1 o := b1 (ix1 o)
  w2 o k := w2 (ix2 o k)
  b2 o := b2 (ix1 o)

/-- Sample `b` of the input array as a cloud of points. -/
def sampleOf (x : (⟨3, ![16, 64, 16]⟩ : Shape).Idx → EReal) (b : Fin 16) (n : Fin 64) (k : Fin 16) : EReal :=
  x (ix3 b n k)

/-- The result array: entry (b, o) is output `o` of the network on sample `b`. -/
def result
    (x : (⟨3, ![16, 64, 16]⟩ : Shape).Idx → EReal)
    (e1w : (⟨2, ![128, 3]⟩ : Shape).Idx → EReal) (e1b : (⟨1, ![128]⟩ : Shape).Idx → EReal)
    (e2w : (⟨2, ![128, 13]⟩ : Shape).Idx → EReal) (e2b : (⟨1, ![128]⟩ : Shape).Idx → EReal)
    (r1w : (⟨2, ![256, 128]⟩ : Shape).Idx → EReal) (r1b : (⟨1, ![256]⟩ : Shape).Idx → EReal)
    (r2w : (⟨2, ![512, 256]⟩ : Shape).Idx → EReal) (r2b : (⟨1, ![512]⟩ : Shape).Idx → EReal)
    (r3w : (⟨2, ![1024, 512]⟩ : Shape).Idx → EReal) (r3b : (⟨1, ![1024]⟩ : Shape).Idx → EReal)
    (w1 : (⟨2, ![512, 2048]⟩ : Shape).Idx → EReal) (b1 : (⟨1, ![512]⟩ : Shape).Idx → EReal)
    (w2 : (⟨2, ![2048, 512]⟩ : Shape).Idx → EReal) (b2 : (⟨1, ![2048]⟩ : Shape).Idx → EReal) :
    (⟨2, ![16, 2048]⟩ : Shape).Idx → EReal :=
  fun i => net (weightsOf e1w e1b e2w e2b r1w r1b r2w r2b r3w r3b w1 b1 w2 b2) (sampleOf x (i 0)) (i 1)

/-- The result array at an index written by its coordinates. -/
theorem result_ix2
    (x : (⟨3, ![16, 64, 16]⟩ : Shape).Idx → EReal)
    (e1w : (⟨2, ![128, 3]⟩ : Shape).Idx → EReal) (e1b : (⟨1, ![128]⟩ : Shape).Idx → EReal)
    (e2w : (⟨2, ![128, 13]⟩ : Shape).Idx → EReal) (e2b : (⟨1, ![128]⟩ : Shape).Idx → EReal)
    (r1w : (⟨2, ![256, 128]⟩ : Shape).Idx → EReal) (r1b : (⟨1, ![256]⟩ : Shape).Idx → EReal)
    (r2w : (⟨2, ![512, 256]⟩ : Shape).Idx → EReal) (r2b : (⟨1, ![512]⟩ : Shape).Idx → EReal)
    (r3w : (⟨2, ![1024, 512]⟩ : Shape).Idx → EReal) (r3b : (⟨1, ![1024]⟩ : Shape).Idx → EReal)
    (w1 : (⟨2, ![512, 2048]⟩ : Shape).Idx → EReal) (b1 : (⟨1, ![512]⟩ : Shape).Idx → EReal)
    (w2 : (⟨2, ![2048, 512]⟩ : Shape).Idx → EReal) (b2 : (⟨1, ![2048]⟩ : Shape).Idx → EReal)
    (b : Fin 16) (o : Fin 2048) :
    result x e1w e1b e2w e2b r1w r1b r2w r2b r3w r3b w1 b1 w2 b2 (ix2 b o)
      = net (weightsOf e1w e1b e2w e2b r1w r1b r2w r2b r3w r3b w1 b1 w2 b2) (sampleOf x b) o := rfl

end Cert.PairNet

end
-- ==== Proof.KernelStages.lean ====
/-
  The kernel's operations read at an index.

  Every matrix product of the kernel body contracts the last axis of its left operand with the first axis of its right
  operand into a zero accumulator, so entry (n, o) of the product is the plain sum over k of left (n, k) · right (k, o).
  The right operand is always a transposed weight matrix, so that sum is the inner product of row n of the input with
  row o of the weights: the `linear` map of the specification. A bias vector is made a one-row matrix and repeated down
  the rows, and the rectifier is a maximum with a splat of zero. The stages below are the kernel's own spelling of these
  maps, each with the lemma that reads a row of it as the specification's function of the corresponding row of its input.
-/
import proofs.«136350_j21328807592435_2_alg».proof.Proof.Gen.KernelIdeal
import proofs.«136350_j21328807592435_2_alg».proof.Proof.Net
import Idealize.ShloMosaic.Lib.ValueIdx
import Idealize.ShloMosaic.Lib.ValueLayout
import Idealize.ShloMosaic.Lib.Pipeline.Value
import Idealize.ShloMosaic.PureOps.Ideal.Laws

noncomputable section

namespace Cert.PairNet.Kernel

open Idealize.ShloMosaic Idealize.ShloMosaic.ValueIdx Cert.PairNet

/-- A product of an [M, K] by a [K, N] matrix into the zero accumulator, read at (n, o): the sum over the contracted
    coordinate of the products. The dimension record is the plain one: the left operand's axis 1 against the right
    operand's axis 0, no batch axis. -/
theorem matmul_plain_apply {M K N : ℕ} {φ₁ φ₂ : FTy} (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂) (n : Fin M) (o : Fin N) :
    matmul d none x w (constant ⟨2, ![M, N]⟩ .f32 0x00000000#32) (ix2 n o) = ∑ k : Fin K, x (ix2 n k) * w (ix2 k o) := by
  subst hd
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 n o) ((contrEquiv1 (DotDims.plain M K N) K rfl rfl).symm k) = ix2 n k :=
    funext fun a => Fin.ext (by
      match a with
      | ⟨0, _⟩ => rfl
      | ⟨1, _⟩ => exact ((DotDims.plain M K N).lhsIdx_val_of_single rfl _ _).trans hk)
  have er : (DotDims.plain M K N).rhsIdx (ix2 n o) ((contrEquiv1 (DotDims.plain M K N) K rfl rfl).symm k) = ix2 k o :=
    funext fun a => Fin.ext (by
      match a with
      | ⟨0, _⟩ => exact ((DotDims.plain M K N).rhsIdx_val_of_single rfl _ _).trans hk
      | ⟨1, _⟩ => rfl)
  rw [el, er]

/-! ## The stages, in the kernel's spelling -/

/-- A linear map in the kernel's spelling: the input times the transposed weight matrix. -/
def kLinear {M K N : ℕ} {φx φw : FTy} (d : DotDims ⟨2, ![M, K]⟩ ⟨2, ![K, N]⟩ ⟨2, ![M, N]⟩)
    (x : FVec Ideal ⟨2, ![M, K]⟩ φx) (w : FVec Ideal ⟨2, ![N, K]⟩ φw)
    (ht : (⟨2, ![N, K]⟩ : Shape).Transposes [1, 0] ⟨2, ![K, N]⟩) : FVec Ideal ⟨2, ![M, N]⟩ .f32 :=
  matmul d none x (transpose ⟨2, ![K, N]⟩ [1, 0] w ht) (constant ⟨2, ![M, N]⟩ .f32 0x00000000#32)

/-- Row n of the kernel's linear map is the specification's linear map of row n of the input. -/
theorem kLinear_apply {M K N : ℕ} {φx φw : FTy} (d : DotDims ⟨2, ![M, K]⟩ ⟨2, ![K, N]⟩ ⟨2, ![M, N]⟩)
    (hd : d = DotDims.plain M K N) (x : FVec Ideal ⟨2, ![M, K]⟩ φx) (w : FVec Ideal ⟨2, ![N, K]⟩ φw)
    (ht : (⟨2, ![N, K]⟩ : Shape).Transposes [1, 0] ⟨2, ![K, N]⟩) (n : Fin M) (o : Fin N) :
    kLinear d x w ht (ix2 n o) = linear (fun o k => w (ix2 o k)) (fun k => x (ix2 n k)) o := by
  unfold kLinear linear
  rw [matmul_plain_apply d hd]
  exact Finset.sum_congr rfl fun k _ => by rw [transpose_ix2_apply]

/-- A bias vector made a one-row matrix and repeated down M rows. -/
def kBias {M N : ℕ} (β : FVec Ideal ⟨1, ![N]⟩ .f32) (hβ : (⟨1, ![N]⟩ : Shape).ShapeCasts ⟨2, ![1, N]⟩)
    (hb : (⟨2, ![1, N]⟩ : Shape).Broadcasts ⟨2, ![M, N]⟩) : FVec Ideal ⟨2, ![M, N]⟩ .f32 :=
  broadcastTo ⟨2, ![M, N]⟩ (shapeCast ⟨2, ![1, N]⟩ β hβ) hb

theorem kBias_apply {M N : ℕ} (β : FVec Ideal ⟨1, ![N]⟩ .f32) (hβ : (⟨1, ![N]⟩ : Shape).ShapeCasts ⟨2, ![1, N]⟩)
    (hb : (⟨2, ![1, N]⟩ : Shape).Broadcasts ⟨2, ![M, N]⟩) (n : Fin M) (o : Fin N) :
    kBias (M := M) β hβ hb (ix2 n o) = β (ix1 o) := by
  unfold kBias
  rw [broadcastTo_1b_ab_apply, shapeCast_a_1a_apply]

/-- A rectified affine layer in the kernel's spelling. -/
def kLayer {M K N : ℕ} {φx φw : FTy} (d : DotDims ⟨2, ![M, K]⟩ ⟨2, ![K, N]⟩ ⟨2, ![M, N]⟩)
    (x : FVec Ideal ⟨2, ![M, K]⟩ φx) (w : FVec Ideal ⟨2, ![N, K]⟩ φw) (β : FVec Ideal ⟨1, ![N]⟩ .f32)
    (ht : (⟨2, ![N, K]⟩ : Shape).Transposes [1, 0] ⟨2, ![K, N]⟩)
    (hβ : (⟨1, ![N]⟩ : Shape).ShapeCasts ⟨2, ![1, N]⟩) (hb : (⟨2, ![1, N]⟩ : Shape).Broadcasts ⟨2, ![M, N]⟩) :
    FVec Ideal ⟨2, ![M, N]⟩ .f32 :=
  maximumf (addf (kLinear d x w ht) (kBias β hβ hb)) (broadcast ⟨2, ![M, N]⟩ (Scalar.ofBits .f32 0x00000000#32))

/-- Row n of the kernel's layer is the specification's layer of row n of the input. -/
theorem kLayer_apply {M K N : ℕ} {φx φw : FTy} (d : DotDims ⟨2, ![M, K]⟩ ⟨2, ![K, N]⟩ ⟨2, ![M, N]⟩)
    (hd : d = DotDims.plain M K N) (x : FVec Ideal ⟨2, ![M, K]⟩ φx) (w : FVec Ideal ⟨2, ![N, K]⟩ φw)
    (β : FVec Ideal ⟨1, ![N]⟩ .f32) (ht : (⟨2, ![N, K]⟩ : Shape).Transposes [1, 0] ⟨2, ![K, N]⟩)
    (hβ : (⟨1, ![N]⟩ : Shape).ShapeCasts ⟨2, ![1, N]⟩) (hb : (⟨2, ![1, N]⟩ : Shape).Broadcasts ⟨2, ![M, N]⟩)
    (n : Fin M) (o : Fin N) :
    kLayer d x w β ht hβ hb (ix2 n o)
      = layer (fun o k => w (ix2 o k)) (fun o => β (ix1 o)) (fun k => x (ix2 n k)) o := by
  unfold kLayer layer affine relu
  rw [maximumf_apply, addf_apply, broadcast_apply, kLinear_apply d hd, kBias_apply]
  show max _ (Ideal.ofBits .f32 0x00000000#32) = _
  rw [Ideal.ofBits_zero_f32]

/-! ## The printed dimension records are the plain one -/

section Records
open Cert.KernelIdeal

theorem dot_3_128 : dot_S64x3_S3x128_S64x128_1_0_0_1_n_n = DotDims.plain 64 3 128 := rfl
theorem dot_13_128 : dot_S64x13_S13x128_S64x128_1_0_0_1_n_n = DotDims.plain 64 13 128 := rfl
theorem dot_128_256 : dot_S64x128_S128x256_S64x256_1_0_0_1_n_n = DotDims.plain 64 128 256 := rfl
theorem dot_256_512 : dot_S64x256_S256x512_S64x512_1_0_0_1_n_n = DotDims.plain 64 256 512 := rfl
theorem dot_512_1024 : dot_S64x512_S512x1024_S64x1024_1_0_0_1_n_n = DotDims.plain 64 512 1024 := rfl
theorem dot_1024_512 : dot_S64x1024_S1024x512_S64x512_1_0_0_1_n_n = DotDims.plain 64 1024 512 := rfl
theorem dot_512_2048 : dot_S1x512_S512x2048_S1x2048_1_0_0_1_n_n = DotDims.plain 1 512 2048 := rfl

end Records

end Cert.PairNet.Kernel

end
-- ==== Proof.LibRankThreeForms.lean ====
/-
  Layout operations on rank-3 arrays read at an index given by coordinates: a middle or trailing unit axis added,
  dropped or broadcast, the two leading axes merged into one or split again, and a slice along the last axis.
  Each is the general reading of a shape cast (equal row-major positions), a broadcast (the unit axis reads
  coordinate 0) or a slice (the offset is added) specialised to indices written by their coordinates.
-/
import Idealize.ShloMosaic.Lib.ValueIdx
import Idealize.ShloMosaic.Lib.Pipeline.Value

namespace Idealize.ShloMosaic.ValueIdx

open Idealize.ShloMosaic

variable {α : Type}

/-- Splitting the leading axis of an [a·b, c] array into [a, b, c]: entry (r, n, k) is entry (r·b + n, k). -/
theorem shapeCast_pc_abc_apply {a b c ab : ℕ} (x : (⟨2, ![ab, c]⟩ : Shape).Idx → α)
    (h : (⟨2, ![ab, c]⟩ : Shape).ShapeCasts ⟨3, ![a, b, c]⟩) (r : Fin a) (n : Fin b) (k : Fin c) (p : Fin ab)
    (hp : p.val = r.val * b + n.val) : shapeCast ⟨3, ![a, b, c]⟩ x h (ix3 r n k) = x (ix2 p k) :=
  shapeCast_apply x h _ _ (by
    rw [Shape.rowMajor_val_three, Shape.rowMajor_val_two]
    show p.val * c + k.val = (r.val * b + n.val) * c + k.val
    rw [hp])

/-- Merging the two leading axes of an [a, b, c] array into [a·b, c]: entry (r·b + n, k) is entry (r, n, k). -/
theorem shapeCast_abc_pc_apply {a b c ab : ℕ} (x : (⟨3, ![a, b, c]⟩ : Shape).Idx → α)
    (h : (⟨3, ![a, b, c]⟩ : Shape).ShapeCasts ⟨2, ![ab, c]⟩) (r : Fin a) (n : Fin b) (k : Fin c) (p : Fin ab)
    (hp : p.val = r.val * b + n.val) : shapeCast ⟨2, ![ab, c]⟩ x h (ix2 p k) = x (ix3 r n k) :=
  shapeCast_apply x h _ _ (by
    rw [Shape.rowMajor_val_three, Shape.rowMajor_val_two]
    show (r.val * b + n.val) * c + k.val = p.val * c + k.val
    rw [hp])

/-- A unit axis put in the middle of an [a, c] array: entry (r, u, k) of the [a, 1, c] array is entry (r, k). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (k : Fin c) :
    shapeCast ⟨3, ![a, 1, c]⟩ x h (ix3 r u k) = x (ix2 r k) :=
  shapeCast_apply x h _ _ (by
    have hu : u.val = 0 := by omega
    rw [Shape.rowMajor_val_three, Shape.rowMajor_val_two]
    show r.val * c + k.val = (r.val * 1 + u.val) * c + k.val
    rw [hu, Nat.mul_one, Nat.add_zero])

/-- A middle unit axis broadcast to length b: entry (r, n, k) reads entry (r, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (n : Fin b) (k : Fin c) :
    broadcastTo ⟨3, ![a, b, c]⟩ x h (ix3 r n k) = x (ix3 r (0 : Fin 1) k) := by
  refine broadcastTo_apply x h (ix3 r n k) (ix3 r (0 : Fin 1) k) fun ax => ?_
  match ax with
  | ⟨0, _⟩ =>
    show r.val = if a = 1 then 0 else r.val
    split
    · omega
    · rfl
  | ⟨1, _⟩ => rfl
  | ⟨2, _⟩ =>
    show k.val = if c = 1 then 0 else k.val
    split
    · omega
    · rfl

/-- A trailing unit axis dropped: entry (r, n) of the [a, b] array is entry (r, n, 0) of the [a, b, 1] one. -/
theorem shapeCast_ab1_ab_apply {a b : ℕ} (x : (⟨3, ![a, b, 1]⟩ : Shape).Idx → α)
    (h : (⟨3, ![a, b, 1]⟩ : Shape).ShapeCasts ⟨2, ![a, b]⟩) (r : Fin a) (n : Fin b) :
    shapeCast ⟨2, ![a, b]⟩ x h (ix2 r n) = x (ix3 r n (0 : Fin 1)) :=
  shapeCast_apply x h _ _ (by
    rw [Shape.rowMajor_val_three, Shape.rowMajor_val_two]
    show (r.val * b + n.val) * 1 + 0 = r.val * b + n.val
    rw [Nat.mul_one, Nat.add_zero])

/-- A trailing unit axis added: entry (r, n, u) of the [a, b, 1] array is entry (r, n) of the [a, b] one. -/
theorem shapeCast_ab_ab1_apply {a b : ℕ} (x : (⟨2, ![a, b]⟩ : Shape).Idx → α)
    (h : (⟨2, ![a, b]⟩ : Shape).ShapeCasts ⟨3, ![a, b, 1]⟩) (r : Fin a) (n : Fin b) (u : Fin 1) :
    shapeCast ⟨3, ![a, b, 1]⟩ x h (ix3 r n u) = x (ix2 r n) :=
  shapeCast_apply x h _ _ (by
    have hu : u.val = 0 := by omega
    rw [Shape.rowMajor_val_three, Shape.rowMajor_val_two]
    show r.val * b + n.val = (r.val * b + n.val) * 1 + u.val
    rw [hu, Nat.mul_one, Nat.add_zero])

/-- A trailing unit axis broadcast to length c: entry (r, n, k) reads entry (r, n, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (n : Fin b) (k : Fin c) :
    broadcastTo ⟨3, ![a, b, c]⟩ x h (ix3 r n k) = x (ix3 r n (0 : Fin 1)) := by
  refine broadcastTo_apply x h (ix3 r n k) (ix3 r n (0 : Fin 1)) fun ax => ?_
  match ax with
  | ⟨0, _⟩ =>
    show r.val = if a = 1 then 0 else r.val
    split
    · omega
    · rfl
  | ⟨1, _⟩ =>
    show n.val = if b = 1 then 0 else n.val
    split
    · omega
    · rfl
  | ⟨2, _⟩ => rfl

/-- A rank-3 array cut along its last axis from `o` reads, at (r, n, j), the source at (r, n, k) with k = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (r : Fin n0) (n : Fin n1) (j : Fin m) (k : Fin n2) (hk : k.val = o + j.val) :
    extractStridedSlice ⟨3, ![n0, n1, m]⟩ ![0, 0, o] X h (ix3 r n j) = X (ix3 r n k) :=
  extractStridedSlice_apply _ _ _ _ _ (fun ax => by
    match ax with
    | ⟨0, _⟩ => exact (Nat.zero_add _).symm
    | ⟨1, _⟩ => exact (Nat.zero_add _).symm
    | ⟨2, _⟩ => exact hk)

end Idealize.ShloMosaic.ValueIdx
-- ==== Proof.LibRankThreeLeadingForms.lean ====
/-
  Layout operations on rank-3 arrays whose LEADING axes are units, read at an index given by coordinates: one
  [b, c] slab broadcast over a new leading axis, a vector placed on the last axis of a [1, 1, c] array, and that array
  broadcast over both leading axes; and a MIDDLE unit axis dropped by a shape cast. A broadcast reads coordinate 0 on
  every unit axis of its operand; a shape cast keeps the row-major position.
-/
import Idealize.ShloMosaic.Lib.ValueIdx
import Idealize.ShloMosaic.Lib.Pipeline.Value

namespace Idealize.ShloMosaic.ValueIdx

open Idealize.ShloMosaic

variable {α : Type}

/-- A leading unit axis broadcast to length a: entry (r, n, k) reads entry (0, n, k). -/
theorem broadcastTo_1bc_abc_apply {a b c : ℕ} (x : (⟨3, ![1, b, c]⟩ : Shape).Idx → α)
    (h : (⟨3, ![1, b, c]⟩ : Shape).Broadcasts ⟨3, ![a, b, c]⟩) (r : Fin a) (n : Fin b) (k : Fin c) :
    broadcastTo ⟨3, ![a, b, c]⟩ x h (ix3 r n k) = x (ix3 (0 : Fin 1) n k) := by
  refine broadcastTo_apply x h (ix3 r n k) (ix3 (0 : Fin 1) n k) fun ax => ?_
  match ax with
  | ⟨0, _⟩ => rfl
  | ⟨1, _⟩ =>
    show n.val = if b = 1 then 0 else n.val
    split
    · omega
    · rfl
  | ⟨2, _⟩ =>
    show k.val = if c = 1 then 0 else k.val
    split
    · omega
    · rfl

/-- A vector placed on the last axis of a [1, 1, c] array: entry (u, v, k) is entry k. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    simp)

/-- Both leading unit axes broadcast: entry (r, n, k) reads entry (0, 0, k). -/
theorem broadcastTo_11c_abc_apply {a b c : ℕ} (x : (⟨3, ![1, 1, c]⟩ : Shape).Idx → α)
    (h : (⟨3, ![1, 1, c]⟩ : Shape).Broadcasts ⟨3, ![a, b, c]⟩) (r : Fin a) (n : Fin b) (k : Fin c) :
    broadcastTo ⟨3, ![a, b, c]⟩ x h (ix3 r n k) = x (ix3 (0 : Fin 1) (0 : Fin 1) k) := by
  refine broadcastTo_apply x h (ix3 r n k) (ix3 (0 : Fin 1) (0 : Fin 1) k) fun ax => ?_
  match ax with
  | ⟨0, _⟩ => rfl
  | ⟨1, _⟩ => rfl
  | ⟨2, _⟩ =>
    show k.val = if c = 1 then 0 else k.val
    split
    · omega
    · rfl

/-- A middle unit axis dropped: entry (r, k) of the [a, c] array is entry (r, 0, k) of the [a, 1, c] one. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (k : Fin c) :
    shapeCast ⟨2, ![a, c]⟩ x h (ix2 r k) = x (ix3 r (0 : Fin 1) k) :=
  shapeCast_apply x h _ _ (by
    rw [Shape.rowMajor_val_three, Shape.rowMajor_val_two]
    show (r.val * 1 + 0) * c + k.val = r.val * c + k.val
    rw [Nat.mul_one, Nat.add_zero])

end Idealize.ShloMosaic.ValueIdx
-- ==== Proof.KernelPairStage.lean ====
/-
  The pair stage of the kernel body, read at an index.

  From the two [n, c] matrices A and B (one row per point) and the bias b1 the body forms the [n, n, c] array whose
  entry (i, j, o) is the rectifier of (B (i, o) + A (j, o)) + b1 o: B gets a unit axis in the middle and is repeated along
  it, A a unit axis in front and is repeated along that, b1 two unit axes in front. The array is then read as a matrix
  of n · n rows (row i · n + j is pair (i, j)) and its rows are summed. A sum over the n · n rows of a matrix is the
  double sum over the pairs: the rows are in bijection with the pairs, and a finite sum in a commutative monoid does not
  depend on how its index set is enumerated.
-/
import proofs.«136350_j21328807592435_2_alg».proof.Proof.Net
import proofs.«136350_j21328807592435_2_alg».proof.Proof.LibRankThreeForms
import proofs.«136350_j21328807592435_2_alg».proof.Proof.LibRankThreeLeadingForms
import Idealize.ShloMosaic.Lib.ValueIdx
import Idealize.ShloMosaic.Lib.ValueLayout
import Idealize.ShloMosaic.Lib.Pipeline.Value
import Idealize.ShloMosaic.PureOps.Ideal.Laws

noncomputable section

namespace Cert.PairNet.Kernel

open Idealize.ShloMosaic Idealize.ShloMosaic.ValueIdx Cert.PairNet

/-- The rectified pair array in the kernel's spelling. -/
def kPairs {n c : ℕ} (A B : FVec Ideal ⟨2, ![n, c]⟩ .f32) (b1 : FVec Ideal ⟨1, ![c]⟩ .f32)
    (hB : (⟨2, ![n, c]⟩ : Shape).ShapeCasts ⟨3, ![n, 1, c]⟩) (hA : (⟨2, ![n, c]⟩ : Shape).ShapeCasts ⟨3, ![1, n, c]⟩)
    (hBb : (⟨3, ![n, 1, c]⟩ : Shape).Broadcasts ⟨3, ![n, n, c]⟩) (hAb : (⟨3, ![1, n, c]⟩ : Shape).Broadcasts ⟨3, ![n, n, c]⟩)
    (h1 : (⟨1, ![c]⟩ : Shape).ShapeCasts ⟨3, ![1, 1, c]⟩) (h1b : (⟨3, ![1, 1, c]⟩ : Shape).Broadcasts ⟨3, ![n, n, c]⟩) :
    FVec Ideal ⟨3, ![n, n, c]⟩ .f32 :=
  maximumf
    (addf
      (addf (broadcastTo ⟨3, ![n, n, c]⟩ (shapeCast ⟨3, ![n, 1, c]⟩ B hB) hBb)
        (broadcastTo ⟨3, ![n, n, c]⟩ (shapeCast ⟨3, ![1, n, c]⟩ A hA) hAb))
      (broadcastTo ⟨3, ![n, n, c]⟩ (shapeCast ⟨3, ![1, 1, c]⟩ b1 h1) h1b))
    (broadcast ⟨3, ![n, n, c]⟩ (Scalar.ofBits .f32 0x00000000#32))

/-- Entry (i, j, o) of the pair array. -/
theorem kPairs_apply {n c : ℕ} (A B : FVec Ideal ⟨2, ![n, c]⟩ .f32) (b1 : FVec Ideal ⟨1, ![c]⟩ .f32)
    (hB : (⟨2, ![n, c]⟩ : Shape).ShapeCasts ⟨3, ![n, 1, c]⟩) (hA : (⟨2, ![n, c]⟩ : Shape).ShapeCasts ⟨3, ![1, n, c]⟩)
    (hBb : (⟨3, ![n, 1, c]⟩ : Shape).Broadcasts ⟨3, ![n, n, c]⟩) (hAb : (⟨3, ![1, n, c]⟩ : Shape).Broadcasts ⟨3, ![n, n, c]⟩)
    (h1 : (⟨1, ![c]⟩ : Shape).ShapeCasts ⟨3, ![1, 1, c]⟩) (h1b : (⟨3, ![1, 1, c]⟩ : Shape).Broadcasts ⟨3, ![n, n, c]⟩)
    (i j : Fin n) (o : Fin c) :
    kPairs A B b1 hB hA hBb hAb h1 h1b (ix3 i j o) = relu ((B (ix2 i o) + A (ix2 j o)) + b1 (ix1 o)) := by
  unfold kPairs relu
  rw [maximumf_apply, addf_apply, addf_apply, broadcast_apply, broadcastTo_a1c_abc_apply, shapeCast_ac_a1c_apply,
    broadcastTo_1bc_abc_apply, shapeCast_ab_1ab_apply, broadcastTo_11c_abc_apply, shapeCast_c_11c_apply]
  show max _ (Ideal.ofBits .f32 0x00000000#32) = _
  rw [Ideal.ofBits_zero_f32]

/-- A sum over the a · b positions of a list of a runs of b is the double sum over run and place in the run. -/
theorem sum_fin_mul {M : Type*} [AddCommMonoid M] {a b : ℕ} (f : Fin (a * b) → M) :
    ∑ p : Fin (a * b), f p = ∑ i : Fin a, ∑ j : Fin b, f (finProdFinEquiv (i, j)) :=
  (Equiv.sum_comp finProdFinEquiv f).symm.trans (Fintype.sum_prod_type _)

/-- The pair array read as a matrix of 64 · 64 rows and summed over its rows: at o, the double sum over the pairs. -/
theorem kPairSum_apply (P : FVec Ideal ⟨3, ![64, 64, 512]⟩ .f32)
    (hsc : (⟨3, ![64, 64, 512]⟩ : Shape).ShapeCasts ⟨2, ![4096, 512]⟩)
    (h : (⟨2, ![4096, 512]⟩ : Shape).Reduces [0] ⟨1, ![512]⟩) (hφ : FKind.Formats .f32)
    (hacc : (0x00000000#32 : BitVec (FTy.bits .f32)) = FKind.add.neutral .f32 hφ) (o : Fin 512) :
    multiReduction .add [0] ⟨1, ![512]⟩ (shapeCast ⟨2, ![4096, 512]⟩ P hsc) 0x00000000#32 h hφ hacc (ix1 o)
      = ∑ i : Fin 64, ∑ j : Fin 64, P (ix3 i j o) := by
  refine (Ideal.multiReduction_add_single (shapeCast ⟨2, ![4096, 512]⟩ P hsc) 0x00000000#32 h hφ hacc (ix1 o)).trans ?_
  refine (sum_fin_mul (a := 64) (b := 64) fun p => shapeCast ⟨2, ![4096, 512]⟩ P hsc (h.lift (ix1 o) p)).trans ?_
  refine Finset.sum_congr rfl fun i _ => Finset.sum_congr rfl fun j _ => ?_
  have hl : h.lift (ix1 o) (finProdFinEquiv (i, j)) = ix2 (finProdFinEquiv (i, j) : Fin 4096) o :=
    funext fun a => Fin.ext (by
      match a with
      | ⟨0, _⟩ => rfl
      | ⟨1, _⟩ => rfl)
  show shapeCast ⟨2, ![4096, 512]⟩ P hsc (h.lift (ix1 o) (finProdFinEquiv (i, j))) = _
  rw [hl]
  exact shapeCast_abc_pc_apply P hsc i j o _ (by
    show j.val + 64 * i.val = i.val * 64 + j.val
    omega)

end Cert.PairNet.Kernel

end
-- ==== Proof.KernelPayload.lean ====
/-
  The value the kernel body stores, read at an index.

  The body's one store writes a [1, 1, 2048] block. Its arithmetic is three nested pure terms: the first two layers'
  worth of the points' features (64 rows of 256), then the rest of the features, the pair array and its row sum (512
  numbers), then the division by the pair count and the last affine map. Each is a composition of the stages of the
  two stage modules, so each is read row by row with those stages' lemmas, and the whole is the specification's
  network applied to the 64 points of the input block.
-/
import proofs.«136350_j21328807592435_2_alg».proof.Proof.Gen.KernelIdeal.Skeleton
import proofs.«136350_j21328807592435_2_alg».proof.Proof.KernelStages
import proofs.«136350_j21328807592435_2_alg».proof.Proof.KernelPairStage

noncomputable section

namespace Cert.PairNet.Kernel

open Idealize.ShloMosaic Idealize.ShloMosaic.ValueIdx Cert.PairNet
open Cert.KernelIdeal Cert.KernelIdeal.Facts₀

/-! ## Rows, matrices and vectors as plain functions -/

/-- Row n of a matrix. -/
def row {M N : ℕ} {φ : FTy} (a : FVec Ideal ⟨2, ![M, N]⟩ φ) (n : Fin M) : Fin N → EReal := fun o => a (ix2 n o)

/-- A matrix by row and column. -/
def mat {N K : ℕ} {φ : FTy} (w : FVec Ideal ⟨2, ![N, K]⟩ φ) : Fin N → Fin K → EReal := fun o k => w (ix2 o k)

/-- A vector by coordinate. -/
def vec {N : ℕ} {φ : FTy} (β : FVec Ideal ⟨1, ![N]⟩ φ) : Fin N → EReal := fun o => β (ix1 o)

/-- Point n of a one-sample block of the input. -/
def point (x : FVec Ideal ⟨3, ![1, 64, 16]⟩ .f32) (n : Fin 64) : Fin 16 → EReal := fun k => x (ix3 (0 : Fin 1) n k)

theorem row_truncf {M N : ℕ} {φ ψ : FTy} (a : FVec Ideal ⟨2, ![M, N]⟩ φ) (h : ψ.bits < φ.bits) (n : Fin M) :
    row (truncf ψ a h) n = row a n := rfl

theorem row_addf {M N : ℕ} {φ : FTy} (a b : FVec Ideal ⟨2, ![M, N]⟩ φ) (n : Fin M) :
    row (addf a b) n = fun o => row a n o + row b n o := rfl

theorem mat_shapeCast_self {N K : ℕ} {φ : FTy} (w : FVec Ideal ⟨2, ![N, K]⟩ φ)
    (h : (⟨2, ![N, K]⟩ : Shape).ShapeCasts ⟨2, ![N, K]⟩) : mat (shapeCast ⟨2, ![N, K]⟩ w h) = mat w := by
  rw [shapeCast_self]

theorem kLayer_row {M K N : ℕ} {φx φw : FTy} (d : DotDims ⟨2, ![M, K]⟩ ⟨2, ![K, N]⟩ ⟨2, ![M, N]⟩)
    (hd : d = DotDims.plain M K N) (x : FVec Ideal ⟨2, ![M, K]⟩ φx) (w : FVec Ideal ⟨2, ![N, K]⟩ φw)
    (β : FVec Ideal ⟨1, ![N]⟩ .f32) (ht : (⟨2, ![N, K]⟩ : Shape).Transposes [1, 0] ⟨2, ![K, N]⟩)
    (hβ : (⟨1, ![N]⟩ : Shape).ShapeCasts ⟨2, ![1, N]⟩) (hb : (⟨2, ![1, N]⟩ : Shape).Broadcasts ⟨2, ![M, N]⟩) (n : Fin M) :
    row (kLayer d x w β ht hβ hb) n = layer (mat w) (vec β) (row x n) :=
  funext fun o => kLayer_apply d hd x w β ht hβ hb n o

theorem kLinear_row {M K N : ℕ} {φx φw : FTy} (d : DotDims ⟨2, ![M, K]⟩ ⟨2, ![K, N]⟩ ⟨2, ![M, N]⟩)
    (hd : d = DotDims.plain M K N) (x : FVec Ideal ⟨2, ![M, K]⟩ φx) (w : FVec Ideal ⟨2, ![N, K]⟩ φw)
    (ht : (⟨2, ![N, K]⟩ : Shape).Transposes [1, 0] ⟨2, ![K, N]⟩) (n : Fin M) :
    row (kLinear d x w ht) n = linear (mat w) (row x n) :=
  funext fun o => kLinear_apply d hd x w ht n o

/-! ## The input block's rows: positions and labels -/

theorem row_position (v0 : FVec Ideal S1x64x16 .f32) (n : Fin 64) :
    row (extractStridedSlice S64x3 ![0, 0] (shapeCast S64x16 v0 shapeCasts_S1x64x16_S64x16) slices_S64x16_o0_0_S64x3) n
      = position (point v0 n) := by
  funext k
  refine (slice2_axis1_apply 0 (shapeCast S64x16 v0 shapeCasts_S1x64x16_S64x16) slices_S64x16_o0_0_S64x3 n k
    ⟨k.val, by have := k.isLt; omega⟩ (Nat.zero_add _).symm).trans ?_
  exact shapeCast_1ab_ab_apply v0 shapeCasts_S1x64x16_S64x16 n _

theorem row_label (v0 : FVec Ideal S1x64x16 .f32) (n : Fin 64) :
    row (extractStridedSlice S64x13 ![0, 3] (shapeCast S64x16 v0 shapeCasts_S1x64x16_S64x16) slices_S64x16_o0_3_S64x13) n
      = label (point v0 n) := by
  funext k
  refine (slice2_axis1_apply 3 (shapeCast S64x16 v0 shapeCasts_S1x64x16_S64x16) slices_S64x16_o0_3_S64x13 n k
    ⟨3 + k.val, by have := k.isLt; omega⟩ rfl).trans ?_
  exact shapeCast_1ab_ab_apply v0 shapeCasts_S1x64x16_S64x16 n _

/-! ## The first payload: the embedding and the first refining layer -/

theorem pay2_eq (v0 : FVec Ideal S1x64x16 .f32) (v6 : FVec Ideal S128x3 .bf16) (v8 : FVec Ideal S128x13 .bf16)
    (v12 v20 : FVec Ideal S128 .f32) (v28 : FVec Ideal S256x128 .bf16) (v32 : FVec Ideal S256 .f32) :
    Gen.k0_pay2 (F := Ideal) v0 v6 v8 v12 v20 v28 v32 =
      truncf .bf16 (kLayer dot_S64x128_S128x256_S64x256_1_0_0_1_n_n
        (truncf .bf16 (addf
          (kLayer dot_S64x3_S3x128_S64x128_1_0_0_1_n_n
            (truncf .bf16 (extractStridedSlice S64x3 ![0, 0] (shapeCast S64x16 v0 shapeCasts_S1x64x16_S64x16) slices_S64x16_o0_0_S64x3) bitsLt_bf16_f32)
            (shapeCast S128x3 v6 shapeCasts_S128x3_S128x3) v12 transposes_S128x3_p1_0_S3x128 shapeCasts_S128_S1x128 broadcasts_S1x128_S64x128)
          (kLayer dot_S64x13_S13x128_S64x128_1_0_0_1_n_n
            (truncf .bf16 (extractStridedSlice S64x13 ![0, 3] (shapeCast S64x16 v0 shapeCasts_S1x64x16_S64x16) slices_S64x16_o0_3_S64x13) bitsLt_bf16_f32)
            (shapeCast S128x13 v8 shapeCasts_S128x13_S128x13) v20 transposes_S128x13_p1_0_S13x128 shapeCasts_S128_S1x128 broadcasts_S1x128_S64x128))
          bitsLt_bf16_f32)
        (shapeCast S256x128 v28 shapeCasts_S256x128_S256x128) v32 transposes_S256x128_p1_0_S128x256 shapeCasts_S256_S1x256 broadcasts_S1x256_S64x256)
        bitsLt_bf16_f32 := rfl

/-- Row n of the first payload: the first refining layer of the embedding of point n. -/
theorem pay2_row (v0 : FVec Ideal S1x64x16 .f32) (v6 : FVec Ideal S128x3 .bf16) (v8 : FVec Ideal S128x13 .bf16)
    (v12 v20 : FVec Ideal S128 .f32) (v28 : FVec Ideal S256x128 .bf16) (v32 : FVec Ideal S256 .f32) (n : Fin 64) :
    row (Gen.k0_pay2 (F := Ideal) v0 v6 v8 v12 v20 v28 v32) n
      = layer (mat v28) (vec v32) (fun o => layer (mat v6) (vec v12) (position (point v0 n)) o
          + layer (mat v8) (vec v20) (label (point v0 n)) o) := by
  rw [pay2_eq, row_truncf, kLayer_row _ dot_128_256, row_truncf, row_addf, kLayer_row _ dot_3_128, kLayer_row _ dot_13_128,
    row_truncf, row_truncf, row_position, row_label, mat_shapeCast_self, mat_shapeCast_self, mat_shapeCast_self]

/-! ## The second payload: the features, the pair array and its row sum -/

/-- The pair layer's matrix restricted to its columns 0–1023, and to its columns 1024–2047. -/
def w1lo (v61 : FVec Ideal S512x2048 .bf16) : Fin 512 → Fin 1024 → EReal :=
  fun o k => v61 (ix2 o (⟨k.val, by have := k.isLt; omega⟩ : Fin 2048))
def w1hi (v61 : FVec Ideal S512x2048 .bf16) : Fin 512 → Fin 1024 → EReal :=
  fun o k => v61 (ix2 o (⟨1024 + k.val, by have := k.isLt; omega⟩ : Fin 2048))

theorem mat_slice_lo (v61 : FVec Ideal S512x2048 .bf16) :
    mat (extractStridedSlice S512x1024 ![0, 0] (shapeCast S512x2048 v61 shapeCasts_S512x2048_S512x2048) slices_S512x2048_o0_0_S512x1024)
      = w1lo v61 := by
  funext o k
  refine (slice2_axis1_apply 0 (shapeCast S512x2048 v61 shapeCasts_S512x2048_S512x2048) slices_S512x2048_o0_0_S512x1024 o k
    ⟨k.val, by have := k.isLt; omega⟩ (Nat.zero_add _).symm).trans ?_
  exact congrFun (shapeCast_self v61 shapeCasts_S512x2048_S512x2048) _

theorem mat_slice_hi (v61 : FVec Ideal S512x2048 .bf16) :
    mat (extractStridedSlice S512x1024 ![0, 1024] (shapeCast S512x2048 v61 shapeCasts_S512x2048_S512x2048) slices_S512x2048_o0_1024_S512x1024)
      = w1hi v61 := by
  funext o k
  refine (slice2_axis1_apply 1024 (shapeCast S512x2048 v61 shapeCasts_S512x2048_S512x2048) slices_S512x2048_o0_1024_S512x1024 o k
    ⟨1024 + k.val, by have := k.isLt; omega⟩ rfl).trans ?_
  exact congrFun (shapeCast_self v61 shapeCasts_S512x2048_S512x2048) _

/-- The last two refining layers in the kernel's spelling. -/
def kFeature (v38 : FVec Ideal S64x256 .bf16) (v39 : FVec Ideal S512x256 .bf16) (v43 : FVec Ideal S512 .f32)
    (v50 : FVec Ideal S1024x512 .bf16) (v54 : FVec Ideal S1024 .f32) : FVec Ideal S64x1024 .bf16 :=
  truncf .bf16 (kLayer dot_S64x512_S512x1024_S64x1024_1_0_0_1_n_n
    (truncf .bf16 (kLayer dot_S64x256_S256x512_S64x512_1_0_0_1_n_n v38 (shapeCast S512x256 v39 shapeCasts_S512x256_S512x256) v43
      transposes_S512x256_p1_0_S256x512 shapeCasts_S512_S1x512 broadcasts_S1x512_S64x512) bitsLt_bf16_f32)
    (shapeCast S1024x512 v50 shapeCasts_S1024x512_S1024x512) v54
    transposes_S1024x512_p1_0_S512x1024 shapeCasts_S1024_S1x1024 broadcasts_S1x1024_S64x1024) bitsLt_bf16_f32

theorem kFeature_row (v38 : FVec Ideal S64x256 .bf16) (v39 : FVec Ideal S512x256 .bf16) (v43 : FVec Ideal S512 .f32)
    (v50 : FVec Ideal S1024x512 .bf16) (v54 : FVec Ideal S1024 .f32) (n : Fin 64) :
    row (kFeature v38 v39 v43 v50 v54) n = layer (mat v50) (vec v54) (layer (mat v39) (vec v43) (row v38 n)) := by
  unfold kFeature
  rw [row_truncf, kLayer_row _ dot_512_1024, row_truncf, kLayer_row _ dot_256_512, mat_shapeCast_self, mat_shapeCast_self]

/-- The two linear maps of the pair layer, applied to the features. -/
def kA (v38 : FVec Ideal S64x256 .bf16) (v39 : FVec Ideal S512x256 .bf16) (v43 : FVec Ideal S512 .f32)
    (v50 : FVec Ideal S1024x512 .bf16) (v54 : FVec Ideal S1024 .f32) (v61 : FVec Ideal S512x2048 .bf16) : FVec Ideal S64x512 .f32 :=
  kLinear dot_S64x1024_S1024x512_S64x512_1_0_0_1_n_n (kFeature v38 v39 v43 v50 v54)
    (extractStridedSlice S512x1024 ![0, 0] (shapeCast S512x2048 v61 shapeCasts_S512x2048_S512x2048) slices_S512x2048_o0_0_S512x1024)
    transposes_S512x1024_p1_0_S1024x512
def kB (v38 : FVec Ideal S64x256 .bf16) (v39 : FVec Ideal S512x256 .bf16) (v43 : FVec Ideal S512 .f32)
    (v50 : FVec Ideal S1024x512 .bf16) (v54 : FVec Ideal S1024 .f32) (v61 : FVec Ideal S512x2048 .bf16) : FVec Ideal S64x512 .f32 :=
  kLinear dot_S64x1024_S1024x512_S64x512_1_0_0_1_n_n (kFeature v38 v39 v43 v50 v54)
    (extractStridedSlice S512x1024 ![0, 1024] (shapeCast S512x2048 v61 shapeCasts_S512x2048_S512x2048) slices_S512x2048_o0_1024_S512x1024)
    transposes_S512x1024_p1_0_S1024x512

theorem kA_row (v38 : FVec Ideal S64x256 .bf16) (v39 : FVec Ideal S512x256 .bf16) (v43 : FVec Ideal S512 .f32)
    (v50 : FVec Ideal S1024x512 .bf16) (v54 : FVec Ideal S1024 .f32) (v61 : FVec Ideal S512x2048 .bf16) (n : Fin 64) :
    row (kA v38 v39 v43 v50 v54 v61) n
      = linear (w1lo v61) (layer (mat v50) (vec v54) (layer (mat v39) (vec v43) (row v38 n))) := by
  unfold kA
  rw [kLinear_row _ dot_1024_512, mat_slice_lo, kFeature_row]

theorem kB_row (v38 : FVec Ideal S64x256 .bf16) (v39 : FVec Ideal S512x256 .bf16) (v43 : FVec Ideal S512 .f32)
    (v50 : FVec Ideal S1024x512 .bf16) (v54 : FVec Ideal S1024 .f32) (v61 : FVec Ideal S512x2048 .bf16) (n : Fin 64) :
    row (kB v38 v39 v43 v50 v54 v61) n
      = linear (w1hi v61) (layer (mat v50) (vec v54) (layer (mat v39) (vec v43) (row v38 n))) := by
  unfold kB
  rw [kLinear_row _ dot_1024_512, mat_slice_hi, kFeature_row]

theorem pay3_eq (v38 : FVec Ideal S64x256 .bf16) (v39 : FVec Ideal S512x256 .bf16) (v43 : FVec Ideal S512 .f32)
    (v50 : FVec Ideal S1024x512 .bf16) (v54 : FVec Ideal S1024 .f32) (v61 : FVec Ideal S512x2048 .bf16) (v69 : FVec Ideal S512 .f32) :
    Gen.k0_pay3 (F := Ideal) v38 v39 v43 v50 v54 v61 v69 =
      multiReduction .add [0] S512 (shapeCast S4096x512
        (kPairs (kA v38 v39 v43 v50 v54 v61) (kB v38 v39 v43 v50 v54 v61) v69
          shapeCasts_S64x512_S64x1x512 shapeCasts_S64x512_S1x64x512 broadcasts_S64x1x512_S64x64x512 broadcasts_S1x64x512_S64x64x512
          shapeCasts_S512_S1x1x512 broadcasts_S1x1x512_S64x64x512)
        shapeCasts_S64x64x512_S4096x512) 0x00000000#32 reduces_S4096x512_S512 (.inl rfl) rfl := rfl

/-- Entry o of the second payload: the sum over the ordered pairs of points of the rectified pair features. -/
theorem pay3_apply (v38 : FVec Ideal S64x256 .bf16) (v39 : FVec Ideal S512x256 .bf16) (v43 : FVec Ideal S512 .f32)
    (v50 : FVec Ideal S1024x512 .bf16) (v54 : FVec Ideal S1024 .f32) (v61 : FVec Ideal S512x2048 .bf16) (v69 : FVec Ideal S512 .f32)
    (o : Fin 512) :
    Gen.k0_pay3 (F := Ideal) v38 v39 v43 v50 v54 v61 v69 (ix1 o)
      = ∑ i : Fin 64, ∑ j : Fin 64,
          relu ((linear (w1hi v61) (layer (mat v50) (vec v54) (layer (mat v39) (vec v43) (row v38 i))) o
            + linear (w1lo v61) (layer (mat v50) (vec v54) (layer (mat v39) (vec v43) (row v38 j))) o) + vec v69 o) := by
  rw [pay3_eq]
  refine (kPairSum_apply _ shapeCasts_S64x64x512_S4096x512 reduces_S4096x512_S512 (.inl rfl) rfl o).trans ?_
  refine Finset.sum_congr rfl fun i _ => Finset.sum_congr rfl fun j _ => ?_
  refine (kPairs_apply (kA v38 v39 v43 v50 v54 v61) (kB v38 v39 v43 v50 v54 v61) v69 _ _ _ _ _ _ i j o).trans ?_
  exact congrArg relu (congrArg₂ (· + ·)
    (congrArg₂ (· + ·) (congrFun (kB_row v38 v39 v43 v50 v54 v61 i) o) (congrFun (kA_row v38 v39 v43 v50 v54 v61 j) o)) rfl)

/-! ## The third payload: the mean and the last affine map -/

theorem pay1_eq (v81 v82 : FVec Ideal S512 .f32) (v86 : FVec Ideal S2048x512 .bf16) (v88 : FVec Ideal S2048 .f32) :
    Gen.k0_pay1 (F := Ideal) v81 v82 v86 v88 =
      shapeCast S1x1x2048 (addf
        (kLinear dot_S1x512_S512x2048_S1x2048_1_0_0_1_n_n
          (shapeCast S1x512 (truncf .bf16 (divf v81 v82) bitsLt_bf16_f32) shapeCasts_S512_S1x512)
          (shapeCast S2048x512 v86 shapeCasts_S2048x512_S2048x512) transposes_S2048x512_p1_0_S512x2048)
        (shapeCast S1x2048 v88 shapeCasts_S2048_S1x2048)) shapeCasts_S1x2048_S1x1x2048 := rfl

/-- Entry o of the stored block: the last affine map of the quotients. -/
theorem pay1_apply (v81 v82 : FVec Ideal S512 .f32) (v86 : FVec Ideal S2048x512 .bf16) (v88 : FVec Ideal S2048 .f32) (o : Fin 2048) :
    Gen.k0_pay1 (F := Ideal) v81 v82 v86 v88 (ix3 (0 : Fin 1) (0 : Fin 1) o)
      = affine (mat v86) (vec v88) (fun k => Ideal.div (v81 (ix1 k)) (v82 (ix1 k))) o := by
  rw [pay1_eq]
  refine (shapeCast_ab_1ab_apply _ shapeCasts_S1x2048_S1x1x2048 (0 : Fin 1) (0 : Fin 1) o).trans ?_
  have hw : (fun (o : Fin 2048) (k : Fin 512) => shapeCast S2048x512 v86 shapeCasts_S2048x512_S2048x512 (ix2 o k)) = mat v86 :=
    mat_shapeCast_self v86 shapeCasts_S2048x512_S2048x512
  have hx : (fun k : Fin 512 => shapeCast S1x512 (truncf .bf16 (divf v81 v82) bitsLt_bf16_f32) shapeCasts_S512_S1x512 (ix2 (0 : Fin 1) k))
      = fun k => Ideal.div (v81 (ix1 k)) (v82 (ix1 k)) :=
    funext fun k => shapeCast_a_1a_apply (truncf .bf16 (divf v81 v82) bitsLt_bf16_f32) shapeCasts_S512_S1x512 (0 : Fin 1) k
  have h1 := kLinear_apply dot_S1x512_S512x2048_S1x2048_1_0_0_1_n_n dot_512_2048
    (shapeCast S1x512 (truncf .bf16 (divf v81 v82) bitsLt_bf16_f32) shapeCasts_S512_S1x512)
    (shapeCast S2048x512 v86 shapeCasts_S2048x512_S2048x512) transposes_S2048x512_p1_0_S512x2048 (0 : Fin 1) o
  rw [hw, hx] at h1
  exact congrArg₂ (· + ·) h1 (shapeCast_a_1a_apply v88 shapeCasts_S2048_S1x2048 (0 : Fin 1) o)

/-! ## The stored block -/

/-- Entry o of the block the body stores, from the fifteen blocks it loads: the network on the input block's points. -/
theorem payload_apply (x0 : FVec Ideal S1x64x16 .f32) (x1 : FVec Ideal S128x3 .bf16) (x2 : FVec Ideal S128 .f32)
    (x3 : FVec Ideal S128x13 .bf16) (x4 : FVec Ideal S128 .f32) (x5 : FVec Ideal S256x128 .bf16) (x6 : FVec Ideal S256 .f32)
    (x7 : FVec Ideal S512x256 .bf16) (x8 : FVec Ideal S512 .f32) (x9 : FVec Ideal S1024x512 .bf16) (x10 : FVec Ideal S1024 .f32)
    (x11 : FVec Ideal S512x2048 .bf16) (x12 : FVec Ideal S512 .f32) (x13 : FVec Ideal S2048x512 .bf16) (x14 : FVec Ideal S2048 .f32)
    (o : Fin 2048) :
    Gen.k0_pay1 (F := Ideal) (Gen.k0_pay3 (Gen.k0_pay2 x0 x1 x3 x2 x4 x5 x6) x7 x8 x9 x10 x11 x12) (Gen.k0_pay4 (F := Ideal)) x13 x14
        (ix3 (0 : Fin 1) (0 : Fin 1) o)
      = net (weightsOf x1 x2 x3 x4 x5 x6 x7 x8 x9 x10 x11 x12 x13 x14) (point x0) o := by
  rw [pay1_apply]
  refine congrArg (fun f => affine (mat x13) (vec x14) f o) (funext fun k => ?_)
  refine congrArg₂ Ideal.div ?_ rfl
  rw [pay3_apply]
  refine Finset.sum_congr rfl fun i _ => Finset.sum_congr rfl fun j _ => ?_
  rw [pay2_row, pay2_row]
  rfl

/-- The same at any index of the [1, 1, 2048] block: its two leading coordinates can only be 0. -/
theorem payload_at (x0 : FVec Ideal S1x64x16 .f32) (x1 : FVec Ideal S128x3 .bf16) (x2 : FVec Ideal S128 .f32)
    (x3 : FVec Ideal S128x13 .bf16) (x4 : FVec Ideal S128 .f32) (x5 : FVec Ideal S256x128 .bf16) (x6 : FVec Ideal S256 .f32)
    (x7 : FVec Ideal S512x256 .bf16) (x8 : FVec Ideal S512 .f32) (x9 : FVec Ideal S1024x512 .bf16) (x10 : FVec Ideal S1024 .f32)
    (x11 : FVec Ideal S512x2048 .bf16) (x12 : FVec Ideal S512 .f32) (x13 : FVec Ideal S2048x512 .bf16) (x14 : FVec Ideal S2048 .f32)
    (y : S1x1x2048.Idx) :
    Gen.k0_pay1 (F := Ideal) (Gen.k0_pay3 (Gen.k0_pay2 x0 x1 x3 x2 x4 x5 x6) x7 x8 x9 x10 x11 x12) (Gen.k0_pay4 (F := Ideal)) x13 x14 y
      = net (weightsOf x1 x2 x3 x4 x5 x6 x7 x8 x9 x10 x11 x12 x13 x14) (point x0) (y 2) := by
  obtain ⟨u, v, o, rfl⟩ : ∃ (u v : Fin 1) (o : Fin 2048), y = ix3 u v o := ⟨y 0, y 1, y 2, eq_ix3 y⟩
  obtain rfl : u = 0 := Fin.ext (by omega)
  obtain rfl : v = 0 := Fin.ext (by omega)
  exact payload_apply x0 x1 x2 x3 x4 x5 x6 x7 x8 x9 x10 x11 x12 x13 x14 o

end Cert.PairNet.Kernel

end
-- ==== Proof.KernelRun.lean ====
/-
  The kernel program's run, read: its result array as a function of its arguments.

  The region's grid has one point per sample. At point t the input window's block is sample t of the input array (its
  block index is (t, 0, 0) and a block is one whole sample), every parameter window's block is the whole parameter array
  (block index 0 on every axis, block as large as the array), and the output window's block is row t of the
  [16, 1, 2048] output array. So what point t writes back is row t of ONE function of the arrays — the network on
  sample t — the 16 rows cover the output array, and the array after the region is that function. The parameter arrays
  the region reads are the host's conversions of the arguments to a narrower format, which change nothing over the
  extended reals. After the region the host drops the output's unit axis: entry (b, o) of the result is entry (b, 0, o).
-/
import proofs.«136350_j21328807592435_2_alg».proof.Proof.Gen.KernelIdeal.Frame
import proofs.«136350_j21328807592435_2_alg».proof.Proof.KernelPayload
import proofs.«136350_j21328807592435_2_alg».proof.Proof.LibRankThreeLeadingForms
import Idealize.ShloMosaic.Lib.Pipeline.Value
import Idealize.ShloMosaic.Lib.StableHlo.Run

noncomputable section

namespace Cert.PairNet.KernelRun

open Cert.KernelIdeal Cert.KernelIdeal.Gen Idealize.ShloMosaic Idealize.ShloMosaic.TcCoe Idealize.SL.Sem
open Idealize.ShloMosaic.ValueIdx
open Idealize.ShloMosaic.Pipeline (Dat)
open Cert.PairNet Cert.PairNet.Kernel

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The windows' block indices, decided over the sixteen grid points -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx15 : ∀ t : Fin cfg0.N, win0_15.index t (0 : Fin 3) = t.val ∧ win0_15.index t (1 : Fin 3) = 0 ∧ win0_15.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 1) = 0 := (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 := (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 := (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 := (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 := (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 1) = 0 := (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 1) = 0 := (by decide +kernel : ∀ t : Fin grid0.N, _)

/-- Every row of the output array is some point's block. -/
theorem idx15_onto : ∀ q : Fin 16, ∃ t : Fin cfg0.N, win0_15.index t = ![q.val, 0, 0] :=
  (by decide +kernel : ∀ q : Fin 16, ∃ t : Fin grid0.N, win0_15.index t = ![q.val, 0, 0])

/-! ## A parameter window's block is the whole parameter array -/

theorem blk1 (c : Dev nD) (t : Fin cfg0.N) : iblk m c 1 t = V m c main_v0 := by
  funext y
  show V m c main_v0 (((cfg0.win 1).blk t).view.emb y) = V m c main_v0 y
  refine congrArg _ (funext fun a => Fin.ext ?_)
  obtain ⟨e0, e1⟩ := idx1 t
  match a with
  | ⟨0, _⟩ => show win0_1.index t (0 : Fin 2) * 128 + 1 * (y 0).val = (y 0).val; omega
  | ⟨1, _⟩ => show win0_1.index t (1 : Fin 2) * 3 + 1 * (y 1).val = (y 1).val; omega

theorem blk2 (c : Dev nD) (t : Fin cfg0.N) : iblk m c 2 t = V m c main_arg2 := by
  funext y
  show V m c main_arg2 (((cfg0.win 2).blk t).view.emb y) = V m c main_arg2 y
  refine congrArg _ (funext fun a => Fin.ext ?_)
  have e0 := idx2 t
  match a with
  | ⟨0, _⟩ => show win0_2.index t (0 : Fin 1) * 128 + 1 * (y 0).val = (y 0).val; omega

theorem blk3 (c : Dev nD) (t : Fin cfg0.N) : iblk m c 3 t = V m c main_v1 := by
  funext y
  show V m c main_v1 (((cfg0.win 3).blk t).view.emb y) = V m c main_v1 y
  refine congrArg _ (funext fun a => Fin.ext ?_)
  obtain ⟨e0, e1⟩ := idx3 t
  match a with
  | ⟨0, _⟩ => show win0_3.index t (0 : Fin 2) * 128 + 1 * (y 0).val = (y 0).val; omega
  | ⟨1, _⟩ => show win0_3.index t (1 : Fin 2) * 13 + 1 * (y 1).val = (y 1).val; omega

theorem blk4 (c : Dev nD) (t : Fin cfg0.N) : iblk m c 4 t = V m c main_arg4 := by
  funext y
  show V m c main_arg4 (((cfg0.win 4).blk t).view.emb y) = V m c main_arg4 y
  refine congrArg _ (funext fun a => Fin.ext ?_)
  have e0 := idx4 t
  match a with
  | ⟨0, _⟩ => show win0_4.index t (0 : Fin 1) * 128 + 1 * (y 0).val = (y 0).val; omega

theorem blk5 (c : Dev nD) (t : Fin cfg0.N) : iblk m c 5 t = V m c main_v2 := by
  funext y
  show V m c main_v2 (((cfg0.win 5).blk t).view.emb y) = V m c main_v2 y
  refine congrArg _ (funext fun a => Fin.ext ?_)
  obtain ⟨e0, e1⟩ := idx5 t
  match a with
  | ⟨0, _⟩ => show win0_5.index t (0 : Fin 2) * 256 + 1 * (y 0).val = (y 0).val; omega
  | ⟨1, _⟩ => show win0_5.index t (1 : Fin 2) * 128 + 1 * (y 1).val = (y 1).val; omega

theorem blk6 (c : Dev nD) (t : Fin cfg0.N) : iblk m c 6 t = V m c main_arg6 := by
  funext y
  show V m c main_arg6 (((cfg0.win 6).blk t).view.emb y) = V m c main_arg6 y
  refine congrArg _ (funext fun a => Fin.ext ?_)
  have e0 := idx6 t
  match a with
  | ⟨0, _⟩ => show win0_6.index t (0 : Fin 1) * 256 + 1 * (y 0).val = (y 0).val; omega

theorem blk7 (c : Dev nD) (t : Fin cfg0.N) : iblk m c 7 t = V m c main_v3 := by
  funext y
  show V m c main_v3 (((cfg0.win 7).blk t).view.emb y) = V m c main_v3 y
  refine congrArg _ (funext fun a => Fin.ext ?_)
  obtain ⟨e0, e1⟩ := idx7 t
  match a with
  | ⟨0, _⟩ => show win0_7.index t (0 : Fin 2) * 512 + 1 * (y 0).val = (y 0).val; omega
  | ⟨1, _⟩ => show win0_7.index t (1 : Fin 2) * 256 + 1 * (y 1).val = (y 1).val; omega

theorem blk8 (c : Dev nD) (t : Fin cfg0.N) : iblk m c 8 t = V m c main_arg8 := by
  funext y
  show V m c main_arg8 (((cfg0.win 8).blk t).view.emb y) = V m c main_arg8 y
  refine congrArg _ (funext fun a => Fin.ext ?_)
  have e0 := idx8 t
  match a with
  | ⟨0, _⟩ => show win0_8.index t (0 : Fin 1) * 512 + 1 * (y 0).val = (y 0).val; omega

theorem blk9 (c : Dev nD) (t : Fin cfg0.N) : iblk m c 9 t = V m c main_v4 := by
  funext y
  show V m c main_v4 (((cfg0.win 9).blk t).view.emb y) = V m c main_v4 y
  refine congrArg _ (funext fun a => Fin.ext ?_)
  obtain ⟨e0, e1⟩ := idx9 t
  match a with
  | ⟨0, _⟩ => show win0_9.index t (0 : Fin 2) * 1024 + 1 * (y 0).val = (y 0).val; omega
  | ⟨1, _⟩ => show win0_9.index t (1 : Fin 2) * 512 + 1 * (y 1).val = (y 1).val; omega

theorem blk10 (c : Dev nD) (t : Fin cfg0.N) : iblk m c 10 t = V m c main_arg10 := by
  funext y
  show V m c main_arg10 (((cfg0.win 10).blk t).view.emb y) = V m c main_arg10 y
  refine congrArg _ (funext fun a => Fin.ext ?_)
  have e0 := idx10 t
  match a with
  | ⟨0, _⟩ => show win0_10.index t (0 : Fin 1) * 1024 + 1 * (y 0).val = (y 0).val; omega

theorem blk11 (c : Dev nD) (t : Fin cfg0.N) : iblk m c 11 t = V m c main_v5 := by
  funext y
  show V m c main_v5 (((cfg0.win 11).blk t).view.emb y) = V m c main_v5 y
  refine congrArg _ (funext fun a => Fin.ext ?_)
  obtain ⟨e0, e1⟩ := idx11 t
  match a with
  | ⟨0, _⟩ => show win0_11.index t (0 : Fin 2) * 512 + 1 * (y 0).val = (y 0).val; omega
  | ⟨1, _⟩ => show win0_11.index t (1 : Fin 2) * 2048 + 1 * (y 1).val = (y 1).val; omega

theorem blk12 (c : Dev nD) (t : Fin cfg0.N) : iblk m c 12 t = V m c main_arg12 := by
  funext y
  show V m c main_arg12 (((cfg0.win 12).blk t).view.emb y) = V m c main_arg12 y
  refine congrArg _ (funext fun a => Fin.ext ?_)
  have e0 := idx12 t
  match a with
  | ⟨0, _⟩ => show win0_12.index t (0 : Fin 1) * 512 + 1 * (y 0).val = (y 0).val; omega

theorem blk13 (c : Dev nD) (t : Fin cfg0.N) : iblk m c 13 t = V m c main_v6 := by
  funext y
  show V m c main_v6 (((cfg0.win 13).blk t).view.emb y) = V m c main_v6 y
  refine congrArg _ (funext fun a => Fin.ext ?_)
  obtain ⟨e0, e1⟩ := idx13 t
  match a with
  | ⟨0, _⟩ => show win0_13.index t (0 : Fin 2) * 2048 + 1 * (y 0).val = (y 0).val; omega
  | ⟨1, _⟩ => show win0_13.index t (1 : Fin 2) * 512 + 1 * (y 1).val = (y 1).val; omega

theorem blk14 (c : Dev nD) (t : Fin cfg0.N) : iblk m c 14 t = V m c main_arg14 := by
  funext y
  show V m c main_arg14 (((cfg0.win 14).blk t).view.emb y) = V m c main_arg14 y
  refine congrArg _ (funext fun a => Fin.ext ?_)
  have e0 := idx14 t
  match a with
  | ⟨0, _⟩ => show win0_14.index t (0 : Fin 1) * 2048 + 1 * (y 0).val = (y 0).val; omega

/-! ## What the region leaves in its output array -/

/-- The output array after the region, as one function of the arrays the region finds: entry (b, u, o) is output o
    of the network on sample b. -/
def regionResult (c : Dev nD) : S16x1x2048.Idx → EReal := fun i =>
  net (weightsOf (V m c main_v0) (V m c main_arg2) (V m c main_v1) (V m c main_arg4) (V m c main_v2) (V m c main_arg6)
      (V m c main_v3) (V m c main_arg8) (V m c main_v4) (V m c main_arg10) (V m c main_v5) (V m c main_arg12)
      (V m c main_v6) (V m c main_arg14))
    (sampleOf (V m c main_arg0) (i 0)) (i 2)

/-- What point t writes back is row t of that function. -/
theorem flushed_eq (c : Dev nD) (t : Fin cfg0.N) :
    (dats m 0 c).flushed 15 t = ((cfg0.win 15).blk t).view.read (Elt Ideal) (regionResult m c) := by
  show (cfg0.win 15).cut (grid0.coords t) ((dats m 0 c).after 15 t) = _
  rw [after0_15]
  unfold out0_15
  rw [View.canon_unit_zero hz3]
  simp only [View.ld_unit_zero (S := S1x64x16) hz3, View.ld_unit_zero (S := S128x3) hz2, View.ld_unit_zero (S := S128x13) hz2,
    View.ld_unit_zero (S := S128) hz1, View.ld_unit_zero (S := S256x128) hz2, View.ld_unit_zero (S := S256) hz1,
    View.ld_unit_zero (S := S512x256) hz2, View.ld_unit_zero (S := S512) hz1, View.ld_unit_zero (S := S1024x512) hz2,
    View.ld_unit_zero (S := S1024) hz1, View.ld_unit_zero (S := S512x2048) hz2, View.ld_unit_zero (S := S2048x512) hz2,
    View.ld_unit_zero (S := S2048) hz1]
  funext y
  refine (payload_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    ((cfg0.win 15).xinj (grid0.coords t) y)).trans ?_
  rw [blk1 m c t, blk2 m c t, blk3 m c t, blk4 m c t, blk5 m c t, blk6 m c t, blk7 m c t, blk8 m c t, blk9 m c t, blk10 m c t,
    blk11 m c t, blk12 m c t, blk13 m c t, blk14 m c t]
  obtain ⟨e0, e1, e2⟩ := idx0 t
  obtain ⟨f0, f1, f2⟩ := idx15 t
  have hy0 : (y 0).val < 1 := (y 0).isLt
  have hpoint : point (iblk m c 0 t) = sampleOf (V m c main_arg0) (((cfg0.win 15).blk t).view.emb y 0) := by
    funext n k
    show V m c main_arg0 (((cfg0.win 0).blk t).view.emb (ix3 (0 : Fin 1) n k)) = V m c main_arg0 (ix3 (((cfg0.win 15).blk t).view.emb y 0) n k)
    refine congrArg _ (funext fun a => Fin.ext ?_)
    match a with
    | ⟨0, _⟩ => show win0_0.index t (0 : Fin 3) * 1 + 1 * 0 = win0_15.index t (0 : Fin 3) * 1 + 1 * (y 0).val; omega
    | ⟨1, _⟩ => show win0_0.index t (1 : Fin 3) * 64 + 1 * n.val = n.val; omega
    | ⟨2, _⟩ => show win0_0.index t (2 : Fin 3) * 16 + 1 * k.val = k.val; omega
  have hidx : ((cfg0.win 15).xinj (grid0.coords t) y 2 : Fin 2048) = ((cfg0.win 15).blk t).view.emb y 2 :=
    Fin.ext (by show (y 2).val = win0_15.index t (2 : Fin 3) * 2048 + 1 * (y 2).val; omega)
  show net _ (point (iblk m c 0 t)) ((cfg0.win 15).xinj (grid0.coords t) y 2) = net _ (sampleOf (V m c main_arg0) (((cfg0.win 15).blk t).view.emb y 0)) (((cfg0.win 15).blk t).view.emb y 2)
  rw [hpoint, hidx]

/-- An index of the output array is in point t's block iff each coordinate is in the block's range on its axis. -/
theorem mem_blk15 (t : Fin cfg0.N) (i : S16x1x2048.Idx) :
    i ∈ ((cfg0.win 15).blk t).view.set ↔ ∀ a : Fin 3, win0_15.index t a * S1x1x2048.size a ≤ (i a).val ∧ (i a).val < win0_15.index t a * S1x1x2048.size a + S1x1x2048.size a := by
  show i ∈ ((View.whole main_v7).slice (win0_15.rect t)).set ↔ _
  rw [View.set_slice_whole, Rect.mem_set_unit]
  exact Iff.rfl

/-- The sixteen rows cover the output array. -/
theorem cover15 (i : S16x1x2048.Idx) : ∃ t : Fin cfg0.N, (cfg0.win 15).flush t = true ∧ i ∈ ((cfg0.win 15).blk t).view.set := by
  have hi0 : (i 0).val < 16 := (i 0).isLt
  have hi1 : (i 1).val < 1 := (i 1).isLt
  have hi2 : (i 2).val < 2048 := (i 2).isLt
  obtain ⟨t, ht⟩ := idx15_onto ⟨(i 0).val, hi0⟩
  have q0 : win0_15.index t (0 : Fin 3) = (i 0).val := congrFun ht 0
  have q1 : win0_15.index t (1 : Fin 3) = 0 := congrFun ht 1
  have q2 : win0_15.index t (2 : Fin 3) = 0 := congrFun ht 2
  refine ⟨t, flush0_15 t, ?_⟩
  rw [mem_blk15]
  intro a
  match a with
  | ⟨0, _⟩ => show win0_15.index t (0 : Fin 3) * 1 ≤ (i 0).val ∧ (i 0).val < win0_15.index t (0 : Fin 3) * 1 + 1; omega
  | ⟨1, _⟩ => show win0_15.index t (1 : Fin 3) * 1 ≤ (i 1).val ∧ (i 1).val < win0_15.index t (1 : Fin 3) * 1 + 1; omega
  | ⟨2, _⟩ => show win0_15.index t (2 : Fin 3) * 2048 ≤ (i 2).val ∧ (i 2).val < win0_15.index t (2 : Fin 3) * 2048 + 2048; omega

/-- So the output array after the region is that function. -/
theorem final15 (c : Dev nD) : (dats m 0 c).arrAt 15 cfg0.N = regionResult m c :=
  (dats m 0 c).arrAt_eq_of_cover 15 (regionResult m c) (fun t _ => flushed_eq m c t) cover15

end Cert.PairNet.KernelRun

end
-- ==== Proof.KernelResult.lean ====
/-
  The kernel program's result over its arguments, and its run.

  The arrays the region finds are the arguments themselves (the input and the biases) and the host's conversions of the
  weight matrices to a narrower float format, which over the extended reals are the matrices themselves. So the
  region's output array is the network on each sample of the ARGUMENTS, and the program's result — the output array
  with its unit axis dropped — is the specification's result array.
-/
import proofs.«136350_j21328807592435_2_alg».proof.Proof.KernelRun

noncomputable section

namespace Cert.PairNet.KernelRun

open Cert.KernelIdeal Cert.KernelIdeal.Gen Idealize.ShloMosaic Idealize.ShloMosaic.TcCoe Idealize.SL.Sem
open Idealize.ShloMosaic.ValueIdx
open Idealize.ShloMosaic.Pipeline (Dat)
open Cert.PairNet Cert.PairNet.Kernel

variable (m : (ℓ : Loc nD τ sig) → Buf (Elt Ideal) ℓ) (ρ : Dev nD → PrngReg)

/-! ## The converted weight matrices are the arguments -/

theorem V_v0 (c : Dev nD) : (V m c main_v0 : S128x3.Idx → EReal) = m ((c : Thread nD τ).loc main_arg1) := by
  show StableHlo.after hostOps0 (fun b => m (c, b)) (Proc.devRef .tc main_v0) = _
  after_results
  rfl
theorem V_v1 (c : Dev nD) : (V m c main_v1 : S128x13.Idx → EReal) = m ((c : Thread nD τ).loc main_arg3) := by
  show StableHlo.after hostOps0 (fun b => m (c, b)) (Proc.devRef .tc main_v1) = _
  after_results
  rfl
theorem V_v2 (c : Dev nD) : (V m c main_v2 : S256x128.Idx → EReal) = m ((c : Thread nD τ).loc main_arg5) := by
  show StableHlo.after hostOps0 (fun b => m (c, b)) (Proc.devRef .tc main_v2) = _
  after_results
  rfl
theorem V_v3 (c : Dev nD) : (V m c main_v3 : S512x256.Idx → EReal) = m ((c : Thread nD τ).loc main_arg7) := by
  show StableHlo.after hostOps0 (fun b => m (c, b)) (Proc.devRef .tc main_v3) = _
  after_results
  rfl
theorem V_v4 (c : Dev nD) : (V m c main_v4 : S1024x512.Idx → EReal) = m ((c : Thread nD τ).loc main_arg9) := by
  show StableHlo.after hostOps0 (fun b => m (c, b)) (Proc.devRef .tc main_v4) = _
  after_results
  rfl
theorem V_v5 (c : Dev nD) : (V m c main_v5 : S512x2048.Idx → EReal) = m ((c : Thread nD τ).loc main_arg11) := by
  show StableHlo.after hostOps0 (fun b => m (c, b)) (Proc.devRef .tc main_v5) = _
  after_results
  rfl
theorem V_v6 (c : Dev nD) : (V m c main_v6 : S2048x512.Idx → EReal) = m ((c : Thread nD τ).loc main_arg13) := by
  show StableHlo.after hostOps0 (fun b => m (c, b)) (Proc.devRef .tc main_v6) = _
  after_results
  rfl

/-- Entry (b, u, o) of the region's output array, over the arguments. -/
theorem regionResult_at (c : Dev nD) (b : Fin 16) (u : Fin 1) (o : Fin 2048) :
    regionResult m c (ix3 b u o)
      = net (weightsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
          (sampleOf (m ((c : Thread nD τ).loc main_arg0)) b) o := by
  unfold regionResult
  rw [V_v0 m c, V_v1 m c, V_v2 m c, V_v3 m c, V_v4 m c, V_v5 m c, V_v6 m c, V_main_arg0 m c, V_main_arg2 m c, V_main_arg4 m c,
    V_main_arg6 m c, V_main_arg8 m c, V_main_arg10 m c, V_main_arg12 m c, V_main_arg14 m c]

/-- The program's result: the specification's result array of the arguments. -/
theorem result_eq (c : Dev nD) :
    Pipeline.afterTail₀ cfgs (dats m) 0 (V0 m) [hostOps1] c main_v8
      = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) : S16x2048.Idx → EReal) := by
  unfold Pipeline.afterTail₀
  show StableHlo.after hostOps1 _ (Proc.devRef .tc main_v8) = _
  after_results
  funext i
  obtain ⟨b, o, rfl⟩ : ∃ (b : Fin 16) (o : Fin 2048), i = ix2 b o := ⟨i 0, i 1, eq_ix2 i⟩
  show shapeCast S16x2048 (Pipeline.withArrays (cfgs 0).spec c (V0 m c) (fun w => (dats m 0 c).arrAt w (cfgs 0).N)
    (Proc.devRef .tc main_v7)) _ (ix2 b o) = _
  refine (shapeCast_a1c_ac_apply _ _ b o).trans ?_
  rw [result_ix2]
  refine (congrFun (Pipeline.withArrays_arr spec0 launch0.win.arr_inj c (V0 m c) (fun w => (dats m 0 c).arrAt w cfg0.N) 15)
    (ix3 b (0 : Fin 1) o)).trans ?_
  rw [final15]
  exact regionResult_at m c b 0 o

/-! ## The run -/

/-- Every weakly fair execution of the kernel program terminates with its result at the specification's result array of
    the arguments, the arguments unchanged. -/
theorem run : θ_run defs (onTc (τ := τ) (main (F := Ideal))) ⟨m, fun _ => 0, ρ⟩ fun r => ∀ c : Dev nD,
      r.2.mem ((c.tc : Thread nD τ).loc main_v8)
        = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c =>
    ⟨((h c).2 main_v8 (Pipeline.mem_restRefs_of main_v8 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c))),
      (((h c).2 main_arg11 (Pipeline.mem_restRefs_of main_arg11 (by decide) (by decide))).trans (W_main_arg11 m (dats m) c)),
      ((h c).1 12).trans (((dats m 0 c).arrAt_in 12 rfl _).trans ((A_eq m c 12).trans (V_main_arg12 m c))),
      (((h c).2 main_arg13 (Pipeline.mem_restRefs_of main_arg13 (by decide) (by decide))).trans (W_main_arg13 m (dats m) c)),
      ((h c).1 14).trans (((dats m 0 c).arrAt_in 14 rfl _).trans ((A_eq m c 14).trans (V_main_arg14 m c)))⟩)
    (run_main m ρ)

end Cert.PairNet.KernelRun

end
-- ==== Proof.LibReduceTwoAxes.lean ====
/-
  A sum over the two middle axes of a rank-4 array. The host's `stablehlo.reduce` with an add body reads, at the ideal
  values, as the initial value plus the sum of the operand over the set of source indices that drop to the result index
  (PureOps/Ideal.lean `Ideal.hostReduceAdd`). PureOps/Ideal/Laws.lean opens that set for ONE reduced axis and for a
  result whose axes all have size one. This file opens it for the axes [1, 2] of a rank-4 shape [n0, n1, n2, n3] reduced
  into [n0, n3]: the indices that drop to (b, o) are exactly the (b, p, q, o), so the filtered sum is the double sum over
  p and q (`sum_filter_drop_mid_axes`, in any commutative additive monoid; `hostReduceAdd_mid_axes` reads the host's
  reduction through it).
-/
import Idealize.ShloMosaic.Lib.ValueIdx
import Idealize.ShloMosaic.Lib.IdealHost
import Idealize.ShloMosaic.PureOps.Reduce

open scoped BigOperators

namespace Idealize.ShloMosaic.ValueIdx

open Idealize.ShloMosaic

/-- A source index of [n0, n1, n2, n3] drops, over the axes [1, 2], to (b, o) exactly when its outer coordinates are
    b and o. -/
theorem drop_mid_axes_eq_iff {n0 n1 n2 n3 : ℕ}
    (h : (⟨4, ![n0, n1, n2, n3]⟩ : Shape).ReducesTo [1, 2] ⟨2, ![n0, n3]⟩)
    (i : (⟨4, ![n0, n1, n2, n3]⟩ : Shape).Idx) (b : Fin n0) (o : Fin n3) :
    h.drop i = ix2 b o ↔ (i 0 : Fin n0) = b ∧ (i 3 : Fin n3) = o := by
  have e0 : (h.drop i 0 : ℕ) = i 0 :=
    h.drop_apply_val_of_eq i 0 0 (by show (0 : ℕ) < 2; decide) (by rfl)
  have e1 : (h.drop i 1 : ℕ) = i 3 :=
    h.drop_apply_val_of_eq i 1 3 (by show (1 : ℕ) < 2; decide) (by rfl)
  constructor
  · intro hi
    refine ⟨Fin.ext ?_, Fin.ext ?_⟩
    · rw [← e0, hi]; rfl
    · rw [← e1, hi]; rfl
  · rintro ⟨h0, h3⟩
    funext a
    refine Fin.ext ?_
    match a with
    | ⟨0, _⟩ => exact e0.trans (congrArg Fin.val h0)
    | ⟨1, _⟩ => exact e1.trans (congrArg Fin.val h3)

/-- The sum over the source indices that drop to (b, o) is the double sum over the two reduced coordinates. -/
theorem sum_filter_drop_mid_axes {M : Type*} [AddCommMonoid M] {n0 n1 n2 n3 : ℕ}
    (h : (⟨4, ![n0, n1, n2, n3]⟩ : Shape).ReducesTo [1, 2] ⟨2, ![n0, n3]⟩)
    (x : (⟨4, ![n0, n1, n2, n3]⟩ : Shape).Idx → M) (b : Fin n0) (o : Fin n3) :
    ∑ i ∈ Finset.univ.filter (fun i => h.drop i = ix2 b o), x i
      = ∑ p : Fin n1, ∑ q : Fin n2, x (ix4 b p q o) := by
  refine Eq.trans ?_ (Finset.sum_product' Finset.univ Finset.univ (fun p q => x (ix4 b p q o)))
  refine (Finset.sum_nbij' (fun pq : Fin n1 × Fin n2 => ix4 b pq.1 pq.2 o)
    (fun i => ((i 1 : Fin n1), (i 2 : Fin n2))) ?_ ?_ ?_ ?_ ?_).symm
  · intro pq _
    exact Finset.mem_filter.mpr ⟨Finset.mem_univ _, (drop_mid_axes_eq_iff h _ b o).mpr ⟨rfl, rfl⟩⟩
  · intro i _
    exact Finset.mem_product.mpr ⟨Finset.mem_univ _, Finset.mem_univ _⟩
  · intro pq _
    rfl
  · intro i hi
    obtain ⟨rfl, rfl⟩ := (drop_mid_axes_eq_iff h i b o).mp (Finset.mem_filter.mp hi).2
    exact (eq_ix4 i).symm
  · intro pq _
    rfl

/-- The host's float sum over the axes [1, 2] of a rank-4 array, read at the ideal values at (b, o): the initial value
    plus the double sum over the two reduced coordinates. -/
theorem hostReduceAdd_mid_axes {n0 n1 n2 n3 : ℕ}
    (h : (⟨4, ![n0, n1, n2, n3]⟩ : Shape).ReducesTo [1, 2] ⟨2, ![n0, n3]⟩)
    (x : (⟨4, ![n0, n1, n2, n3]⟩ : Shape).Idx → EReal) (init : EReal) (b : Fin n0) (o : Fin n3) :
    Ideal.hostReduceAdd h x init (ix2 b o) = init + ∑ p : Fin n1, ∑ q : Fin n2, x (ix4 b p q o) := by
  unfold Ideal.hostReduceAdd
  rw [sum_filter_drop_mid_axes h x b o]

end Idealize.ShloMosaic.ValueIdx
-- ==== Proof.RefValue.lean ====
/-
  The reference program computes the pair network.

  The reference is read one operation at a time by the generated module Read: every stage is a function of the
  arguments, and every stage but one is read at an index. This file follows one sample `b` through the stages and
  identifies each with the function of Net.lean it computes:

  * a point `n` of the sample is embedded by two rectified affine maps, one on its first 3 coordinates and one on its
    last 13, and the two are added (`v6_at`, `v11_at`, `v12_at`);
  * three rectified affine layers refine the embedding into the point's 1024 features (`v17_at`, `v22_at`, `v27_at`);
  * the two halves of the pair layer's matrix are applied to every point's features (`v30_at`: columns 0–1023,
    `v31_at`: columns 1024–2047); for the ordered pair (i, j) the second half's value at point i and the first half's
    at point j are added, the bias is added, and the rectifier is taken (`v40_at`);
  * the pair features are summed over all ordered pairs: the host's sum over the two point axes is, at the ideal
    values, the double sum over the two coordinates (LibReduceTwoAxes.lean), from an initial value that is the word of
    zero (`v41_at`); the sum is divided by the word of 4096 (`v43_at`);
  * the last affine map takes the 512 means to the 2048 outputs (`v47_at`).

  Every stage is an equality of extended reals at one index; an index the program composes from broadcasts, slices and
  dimension numbers is identified with the index written by its coordinates, coordinate by coordinate. The only
  properties of the extended reals' arithmetic used are `0 + x = x` and that a finite sum may be re-indexed along a
  bijection (the double sum over the pairs): everywhere else the two sides are the same sums of the same terms.
-/
import proofs.«136350_j21328807592435_2_alg».proof.Proof.Gen.ReferenceIdeal.Read
import proofs.«136350_j21328807592435_2_alg».proof.Proof.Net
import Idealize.ShloMosaic.Lib.ValueIdx
import Idealize.ShloMosaic.Lib.IdealHost
import Idealize.ShloMosaic.PureOps.Ideal.Laws
import Idealize.ShloMosaic.PureOps.Reduce
import Idealize.ShloMosaic.Lib.Pipeline.Value
import proofs.«136350_j21328807592435_2_alg».proof.Proof.LibReduceTwoAxes

noncomputable section

namespace Cert.PairNet.RefValue

open Cert.ReferenceIdeal Cert.ReferenceIdeal.Read Idealize.ShloMosaic Idealize.ShloMosaic.ValueIdx
open scoped BigOperators

/-! ## Small tools -/

/-- Two rank-1 indices with the same coordinate are equal. -/
theorem idx1_ext {n0 : ℕ} {i j : (⟨1, ![n0]⟩ : Shape).Idx} (h0 : (i 0).val = (j 0).val) : i = j :=
  funext fun a => Fin.ext (by match a with | ⟨0, _⟩ => exact h0)

/-- Two rank-2 indices with the same coordinates are equal. -/
theorem idx2_ext {n0 n1 : ℕ} {i j : (⟨2, ![n0, n1]⟩ : Shape).Idx}
    (h0 : (i 0).val = (j 0).val) (h1 : (i 1).val = (j 1).val) : i = j :=
  funext fun a => Fin.ext (by match a with | ⟨0, _⟩ => exact h0 | ⟨1, _⟩ => exact h1)

/-- Two rank-3 indices with the same coordinates are equal. -/
theorem idx3_ext {n0 n1 n2 : ℕ} {i j : (⟨3, ![n0, n1, n2]⟩ : Shape).Idx}
    (h0 : (i 0).val = (j 0).val) (h1 : (i 1).val = (j 1).val) (h2 : (i 2).val = (j 2).val) : i = j :=
  funext fun a => Fin.ext (by match a with | ⟨0, _⟩ => exact h0 | ⟨1, _⟩ => exact h1 | ⟨2, _⟩ => exact h2)

/-- A rectified affine layer's output, recognised from its parts: the products summed, the bias added, the maximum
    with zero taken. -/
theorem layer_of_eq {K N : ℕ} (W : Fin N → Fin K → EReal) (β : Fin N → EReal) (x : Fin K → EReal) (o : Fin N)
    (T : Fin K → EReal) (c z : EReal) (hT : ∀ k, T k = x k * W o k) (hc : c = β o) (hz : z = 0) :
    max ((∑ k : Fin K, T k) + c) z = layer W β x o := by
  subst hz hc
  unfold layer affine linear relu
  rw [Finset.sum_congr rfl fun k _ => hT k]

/-- An affine map's output, recognised from its parts. -/
theorem affine_of_eq {K N : ℕ} (W : Fin N → Fin K → EReal) (β : Fin N → EReal) (x : Fin K → EReal) (o : Fin N)
    (T : Fin K → EReal) (c : EReal) (hT : ∀ k, T k = x k * W o k) (hc : c = β o) :
    (∑ k : Fin K, T k) + c = affine W β x o := by
  subst hc
  unfold affine linear
  rw [Finset.sum_congr rfl fun k _ => hT k]

/-- A linear map's output, recognised from its terms. -/
theorem linear_of_eq {K N : ℕ} (W : Fin N → Fin K → EReal) (x : Fin K → EReal) (o : Fin N)
    (T : Fin K → EReal) (hT : ∀ k, T k = x k * W o k) :
    (∑ k : Fin K, T k) = linear W x o := by
  unfold linear
  rw [Finset.sum_congr rfl fun k _ => hT k]

section Stages

variable (x0 : (⟨S16x64x16, .f32⟩ : BufTy).Contents (Elt Ideal)) (x1 : (⟨S128x3, .f32⟩ : BufTy).Contents (Elt Ideal)) (x2 : (⟨S128, .f32⟩ : BufTy).Contents (Elt Ideal)) (x3 : (⟨S128x13, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (x7 : (⟨S512x256, .f32⟩ : BufTy).Contents (Elt Ideal)) (x8 : (⟨S512, .f32⟩ : BufTy).Contents (Elt Ideal)) (x9 : (⟨S1024x512, .f32⟩ : BufTy).Contents (Elt Ideal)) (x10 : (⟨S1024, .f32⟩ : BufTy).Contents (Elt Ideal)) (x11 : (⟨S512x2048, .f32⟩ : BufTy).Contents (Elt Ideal)) (x12 : (⟨S512, .f32⟩ : BufTy).Contents (Elt Ideal)) (x13 : (⟨S2048x512, .f32⟩ : BufTy).Contents (Elt Ideal)) (x14 : (⟨S2048, .f32⟩ : BufTy).Contents (Elt Ideal))

/-! ## The two embeddings of a point -/

/-- The first rectified affine map, on the position of point `n` of sample `b`. -/
theorem v6_at (b : Fin 16) (n : Fin 64) (o : Fin 128) :
    val_main_v6 (F := Ideal) x0 x1 x2 (ix3 b n o)
      = layer (weightsOf x1 x2 x3 x4 x5 x6 x7 x8 x9 x10 x11 x12 x13 x14).e1w (weightsOf x1 x2 x3 x4 x5 x6 x7 x8 x9 x10 x11 x12 x13 x14).e1b (position (sampleOf x0 b n)) o := by
  rw [val_main_v6_apply, val_main_v5_apply, val_main_v2_apply, val_main_v4_apply, val_main_v3_apply,
    val_main_call0_v0_apply, val_main_call0_cst_apply]
  refine layer_of_eq _ _ _ _ _ _ _ (fun k => ?_) ?_ Ideal.ofBits_zero_f32
  · rw [val_main_v0_apply]
    exact congrArg₂ (· * ·) (congrArg x0 (idx3_ext rfl rfl rfl)) (congrArg x1 (idx2_ext rfl rfl))
  · exact congrArg x2 (idx1_ext rfl)

/-- The second rectified affine map, on the label of the same point. -/
theorem v11_at (b : Fin 16) (n : Fin 64) (o : Fin 128) :
    val_main_v11 (F := Ideal) x0 x3 x4 (ix3 b n o)
      = layer (weightsOf x1 x2 x3 x4 x5 x6 x7 x8 x9 x10 x11 x12 x13 x14).e2w (weightsOf x1 x2 x3 x4 x5 x6 x7 x8 x9 x10 x11 x12 x13 x14).e2b (label (sampleOf x0 b n)) o := by
  rw [val_main_v11_apply, val_main_v10_apply, val_main_v7_apply, val_main_v9_apply, val_main_v8_apply,
    val_main_call1_v0_apply, val_main_call1_cst_apply]
  refine layer_of_eq _ _ _ _ _ _ _ (fun k => ?_) ?_ Ideal.ofBits_zero_f32
  · rw [val_main_v1_apply]
    exact congrArg₂ (· * ·) (congrArg x0 (idx3_ext rfl rfl rfl)) (congrArg x3 (idx2_ext rfl rfl))
  · exact congrArg x4 (idx1_ext rfl)

/-- Their sum is the point's embedding. -/
theorem v12_at (b : Fin 16) (n : Fin 64) (o : Fin 128) :
    val_main_v12 (F := Ideal) x0 x1 x2 x3 x4 (ix3 b n o) = embed (weightsOf x1 x2 x3 x4 x5 x6 x7 x8 x9 x10 x11 x12 x13 x14) (sampleOf x0 b n) o := by
  rw [val_main_v12_apply]
  exact congrArg₂ (· + ·) (v6_at x0 x1 x2 x3 x4 x5 x6 x7 x8 x9 x10 x11 x12 x13 x14 b n o) (v11_at x0 x1 x2 x3 x4 x5 x6 x7 x8 x9 x10 x11 x12 x13 x14 b n o)

/-! ## The three refining layers -/

/-- The first refining layer. -/
theorem v17_at (b : Fin 16) (n : Fin 64) (o : Fin 256) :
    val_main_v17 (F := Ideal) x0 x1 x2 x3 x4 x5 x6 (ix3 b n o)
      = layer (weightsOf x1 x2 x3 x4 x5 x6 x7 x8 x9 x10 x11 x12 x13 x14).r1w (weightsOf x1 x2 x3 x4 x5 x6 x7 x8 x9 x10 x11 x12 x13 x14).r1b (embed (weightsOf x1 x2 x3 x4 x5 x6 x7 x8 x9 x10 x11 x12 x13 x14) (sampleOf x0 b n)) o := by
  rw [val_main_v17_apply, val_main_v16_apply, val_main_v13_apply, val_main_v15_apply, val_main_v14_apply,
    val_main_call2_v0_apply, val_main_call2_cst_apply]
  refine layer_of_eq _ _ _ _ _ _ _ (fun k => ?_) ?_ Ideal.ofBits_zero_f32
  · rw [show lidx_main_v13 (ix3 b n o) k = ix3 b n k from idx3_ext rfl rfl rfl,
      show ridx_main_v13 (ix3 b n o) k = ix2 o k from idx2_ext rfl rfl,
      v12_at x0 x1 x2 x3 x4 x5 x6 x7 x8 x9 x10 x11 x12 x13 x14 b n k]
    rfl
  · exact congrArg x6 (idx1_ext (j := ix1 o) rfl)

/-- The second refining layer. -/
theorem v22_at (b : Fin 16) (n : Fin 64) (o : Fin 512) :
    val_main_v22 (F := Ideal) x0 x1 x2 x3 x4 x5 x6 x7 x8 (ix3 b n o)
      = layer (weightsOf x1 x2 x3 x4 x5 x6 x7 x8 x9 x10 x11 x12 x13 x14).r2w (weightsOf x1 x2 x3 x4 x5 x6 x7 x8 x9 x10 x11 x12 x13 x14).r2b (layer (weightsOf x1 x2 x3 x4 x5 x6 x7 x8 x9 x10 x11 x12 x13 x14).r1w (weightsOf x1 x2 x3 x4 x5 x6 x7 x8 x9 x10 x11 x12 x13 x14).r1b (embed (weightsOf x1 x2 x3 x4 x5 x6 x7 x8 x9 x10 x11 x12 x13 x14) (sampleOf x0 b n))) o := by
  rw [val_main_v22_apply, val_main_v21_apply, val_main_v18_apply, val_main_v20_apply, val_main_v19_apply,
    val_main_call3_v0_apply, val_main_call3_cst_apply]
  refine layer_of_eq _ _ _ _ _ _ _ (fun k => ?_) ?_ Ideal.ofBits_zero_f32
  · rw [show lidx_main_v18 (ix3 b n o) k = ix3 b n k from idx3_ext rfl rfl rfl,
      show ridx_main_v18 (ix3 b n o) k = ix2 o k from idx2_ext rfl rfl,
      v17_at x0 x1 x2 x3 x4 x5 x6 x7 x8 x9 x10 x11 x12 x13 x14 b n k]
    rfl
  · exact congrArg x8 (idx1_ext (j := ix1 o) rfl)

/-- The third refining layer: the point's 1024 features. -/
theorem v27_at (b : Fin 16) (n : Fin 64) (o : Fin 1024) :
    val_main_v27 (F := Ideal) x0 x1 x2 x3 x4 x5 x6 x7 x8 x9 x10 (ix3 b n o)
      = feature (weightsOf x1 x2 x3 x4 x5 x6 x7 x8 x9 x10 x11 x12 x13 x14) (sampleOf x0 b n) o := by
  rw [val_main_v27_apply, val_main_v26_apply, val_main_v23_apply, val_main_v25_apply, val_main_v24_apply,
    val_main_call4_v0_apply, val_main_call4_cst_apply]
  unfold feature
  refine layer_of_eq _ _ _ _ _ _ _ (fun k => ?_) ?_ Ideal.ofBits_zero_f32
  · rw [show lidx_main_v23 (ix3 b n o) k = ix3 b n k from idx3_ext rfl rfl rfl,
      show ridx_main_v23 (ix3 b n o) k = ix2 o k from idx2_ext rfl rfl,
      v22_at x0 x1 x2 x3 x4 x5 x6 x7 x8 x9 x10 x11 x12 x13 x14 b n k]
    rfl
  · exact congrArg x10 (idx1_ext (j := ix1 o) rfl)

/-! ## The pair layer -/

/-- The first half of the pair layer's matrix (its columns 0–1023) applied to a point's features. -/
theorem v30_at (b : Fin 16) (n : Fin 64) (o : Fin 512) :
    val_main_v30 (F := Ideal) x0 x1 x2 x3 x4 x5 x6 x7 x8 x9 x10 x11 (ix3 b n o)
      = linear (weightsOf x1 x2 x3 x4 x5 x6 x7 x8 x9 x10 x11 x12 x13 x14).w1a (feature (weightsOf x1 x2 x3 x4 x5 x6 x7 x8 x9 x10 x11 x12 x13 x14) (sampleOf x0 b n)) o := by
  rw [val_main_v30_apply]
  refine linear_of_eq _ _ _ _ (fun k => ?_)
  rw [val_main_v28_apply,
    show lidx_main_v30 (ix3 b n o) k = ix3 b n k from idx3_ext rfl rfl rfl,
    show idx_main_v28 (ridx_main_v30 (ix3 b n o) k)
      = ix2 o (⟨k.val, by have := k.isLt; omega⟩ : Fin 2048) from idx2_ext rfl rfl,
    v27_at x0 x1 x2 x3 x4 x5 x6 x7 x8 x9 x10 x11 x12 x13 x14 b n k]
  rfl

/-- The second half (its columns 1024–2047) applied to a point's features. -/
theorem v31_at (b : Fin 16) (n : Fin 64) (o : Fin 512) :
    val_main_v31 (F := Ideal) x0 x1 x2 x3 x4 x5 x6 x7 x8 x9 x10 x11 (ix3 b n o)
      = linear (weightsOf x1 x2 x3 x4 x5 x6 x7 x8 x9 x10 x11 x12 x13 x14).w1b (feature (weightsOf x1 x2 x3 x4 x5 x6 x7 x8 x9 x10 x11 x12 x13 x14) (sampleOf x0 b n)) o := by
  rw [val_main_v31_apply]
  refine linear_of_eq _ _ _ _ (fun k => ?_)
  rw [val_main_v29_apply,
    show lidx_main_v31 (ix3 b n o) k = ix3 b n k from idx3_ext rfl rfl rfl,
    show idx_main_v29 (ridx_main_v31 (ix3 b n o) k)
      = ix2 o (⟨1024 + k.val, by have := k.isLt; omega⟩ : Fin 2048) from idx2_ext rfl rfl,
    v27_at x0 x1 x2 x3 x4 x5 x6 x7 x8 x9 x10 x11 x12 x13 x14 b n k]
  rfl

/-- The pair features of the ordered pair (i, j): the second half on point i, the first half on point j, the bias, and
    the rectifier. -/
theorem v40_at (b : Fin 16) (i j : Fin 64) (o : Fin 512) :
    val_main_v40 (F := Ideal) x0 x1 x2 x3 x4 x5 x6 x7 x8 x9 x10 x11 x12 (ix4 b i j o)
      = pairFeature (weightsOf x1 x2 x3 x4 x5 x6 x7 x8 x9 x10 x11 x12 x13 x14) (feature (weightsOf x1 x2 x3 x4 x5 x6 x7 x8 x9 x10 x11 x12 x13 x14) (sampleOf x0 b i)) (feature (weightsOf x1 x2 x3 x4 x5 x6 x7 x8 x9 x10 x11 x12 x13 x14) (sampleOf x0 b j)) o := by
  rw [val_main_v40_apply, val_main_v39_apply, val_main_v36_apply, val_main_v34_apply, val_main_v32_apply,
    val_main_v35_apply, val_main_v33_apply, val_main_v38_apply, val_main_v37_apply,
    val_main_call5_v0_apply, val_main_call5_cst_apply]
  rw [show idx_main_v32 (idx_main_v34 (ix4 b i j o)) = ix3 b i o from idx3_ext rfl rfl rfl,
    show idx_main_v33 (idx_main_v35 (ix4 b i j o)) = ix3 b j o from idx3_ext rfl rfl rfl,
    show idx_main_v37 (idx_main_v38 (ix4 b i j o)) = ix1 o from idx1_ext rfl,
    v31_at x0 x1 x2 x3 x4 x5 x6 x7 x8 x9 x10 x11 x12 x13 x14 b i o, v30_at x0 x1 x2 x3 x4 x5 x6 x7 x8 x9 x10 x11 x12 x13 x14 b j o]
  rw [Ideal.maximumf_def, Ideal.addf_def, Ideal.addf_def]
  show max _ (Ideal.ofBits .f32 0x00000000#32) = _
  rw [Ideal.ofBits_zero_f32]
  rfl

/-- The sum of the pair features over all ordered pairs: the host's sum over the two point axes, from the zero word. -/
theorem v41_at (b : Fin 16) (o : Fin 512) :
    val_main_v41 (F := Ideal) x0 x1 x2 x3 x4 x5 x6 x7 x8 x9 x10 x11 x12 (ix2 b o)
      = pairSum (weightsOf x1 x2 x3 x4 x5 x6 x7 x8 x9 x10 x11 x12 x13 x14) (fun n => feature (weightsOf x1 x2 x3 x4 x5 x6 x7 x8 x9 x10 x11 x12 x13 x14) (sampleOf x0 b n)) o := by
  unfold val_main_v41
  rw [hostReduceAdd_apply, hostReduceAdd_mid_axes, val_main_cst_apply]
  show Ideal.ofBits .f32 0x00000000#32 + _ = _
  rw [Ideal.ofBits_zero_f32, zero_add]
  unfold pairSum
  exact Finset.sum_congr rfl fun i _ => Finset.sum_congr rfl fun j _ => v40_at x0 x1 x2 x3 x4 x5 x6 x7 x8 x9 x10 x11 x12 x13 x14 b i j o

/-- Their mean: the sum divided by the word of 4096. -/
theorem v43_at (b : Fin 16) (o : Fin 512) :
    val_main_v43 (F := Ideal) x0 x1 x2 x3 x4 x5 x6 x7 x8 x9 x10 x11 x12 (ix2 b o)
      = pairMean (weightsOf x1 x2 x3 x4 x5 x6 x7 x8 x9 x10 x11 x12 x13 x14) (fun n => feature (weightsOf x1 x2 x3 x4 x5 x6 x7 x8 x9 x10 x11 x12 x13 x14) (sampleOf x0 b n)) o := by
  rw [val_main_v43_apply, val_main_v42_apply, val_main_cst_0_apply, v41_at x0 x1 x2 x3 x4 x5 x6 x7 x8 x9 x10 x11 x12 x13 x14 b o]
  rfl

/-! ## The last affine map -/

/-- Entry (b, o) of the reference's result is output `o` of the network on sample `b`. -/
theorem v47_at (b : Fin 16) (o : Fin 2048) :
    val_main_v47 (F := Ideal) x0 x1 x2 x3 x4 x5 x6 x7 x8 x9 x10 x11 x12 x13 x14 (ix2 b o)
      = net (weightsOf x1 x2 x3 x4 x5 x6 x7 x8 x9 x10 x11 x12 x13 x14) (sampleOf x0 b) o := by
  rw [val_main_v47_apply, val_main_v44_apply, val_main_v46_apply, val_main_v45_apply, Ideal.addf_def]
  unfold net
  refine affine_of_eq _ _ _ _ _ _ (fun k => ?_) ?_
  · rw [show lidx_main_v44 (ix2 b o) k = ix2 b k from idx2_ext rfl rfl,
      show ridx_main_v44 (ix2 b o) k = ix2 o k from idx2_ext rfl rfl,
      v43_at x0 x1 x2 x3 x4 x5 x6 x7 x8 x9 x10 x11 x12 x13 x14 b k]
    rfl
  · exact congrArg x14 (idx1_ext (j := ix1 o) rfl)

end Stages

/-- The reference program's result is the network applied to every sample. -/
theorem reference_eq
    (x0 : (⟨S16x64x16, .f32⟩ : BufTy).Contents (Elt Ideal)) (x1 : (⟨S128x3, .f32⟩ : BufTy).Contents (Elt Ideal)) (x2 : (⟨S128, .f32⟩ : BufTy).Contents (Elt Ideal)) (x3 : (⟨S128x13, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (x7 : (⟨S512x256, .f32⟩ : BufTy).Contents (Elt Ideal)) (x8 : (⟨S512, .f32⟩ : BufTy).Contents (Elt Ideal)) (x9 : (⟨S1024x512, .f32⟩ : BufTy).Contents (Elt Ideal)) (x10 : (⟨S1024, .f32⟩ : BufTy).Contents (Elt Ideal)) (x11 : (⟨S512x2048, .f32⟩ : BufTy).Contents (Elt Ideal)) (x12 : (⟨S512, .f32⟩ : BufTy).Contents (Elt Ideal)) (x13 : (⟨S2048x512, .f32⟩ : BufTy).Contents (Elt Ideal)) (x14 : (⟨S2048, .f32⟩ : BufTy).Contents (Elt Ideal)) :
    Cert.ReferenceIdeal.Read.val_main_v47 (F := Ideal) x0 x1 x2 x3 x4 x5 x6 x7 x8 x9 x10 x11 x12 x13 x14
      = Cert.PairNet.result x0 x1 x2 x3 x4 x5 x6 x7 x8 x9 x10 x11 x12 x13 x14 := by
  funext i
  obtain ⟨b, o, rfl⟩ : ∃ (b : Fin 16) (o : Fin 2048), i = ix2 b o := ⟨i 0, i 1, eq_ix2 i⟩
  rw [result_ix2]
  exact v47_at x0 x1 x2 x3 x4 x5 x6 x7 x8 x9 x10 x11 x12 x13 x14 b o

end Cert.PairNet.RefValue

end
-- ==== Proof.lean ====
/-
  The certificate: the kernel program and its reference compute the same array over the extended reals.

  Both programs apply, to each of the 16 samples of the input, the network of Proof/Net.lean: two rectified affine maps
  of a point's position and label, added; three more rectified affine layers; for every ordered pair of the sample's 64
  points the rectifier of a sum of two linear maps of the two points' features and a bias; the mean over the 4096 pairs;
  a last affine map. The kernel does this one sample per grid point, with the weights transposed, the pair array built
  by broadcasts and summed as a matrix of 4096 rows; the reference does it for all samples at once, with the pair array
  of rank 4 summed over its two middle axes. Entry by entry the two are the same finite sums of the same terms, in
  another order: the frames come from the generated frame certificates and the reference's generated run, and the value
  claim from the two value modules (Proof/KernelResult.lean, Proof/RefValue.lean), each of which shows its program's
  result to be the one array `Cert.PairNet.result` of the arguments. No float operation of the kernel was rewritten
  when it was read over the extended reals, so there is nothing to preserve beyond the program's own text.
-/
import proofs.«136350_j21328807592435_2_alg».proof.Defs
import proofs.«136350_j21328807592435_2_alg».proof.Proof.Gen.Kernel
import proofs.«136350_j21328807592435_2_alg».proof.Proof.Gen.Kernel.Skeleton
import proofs.«136350_j21328807592435_2_alg».proof.Proof.Gen.Kernel.Launch
import proofs.«136350_j21328807592435_2_alg».proof.Proof.Gen.Kernel.Points
import proofs.«136350_j21328807592435_2_alg».proof.Proof.Gen.Kernel.Frame
import proofs.«136350_j21328807592435_2_alg».proof.Proof.Gen.KernelIdeal
import proofs.«136350_j21328807592435_2_alg».proof.Proof.Gen.KernelIdeal.Skeleton
import proofs.«136350_j21328807592435_2_alg».proof.Proof.Gen.KernelIdeal.Launch
import proofs.«136350_j21328807592435_2_alg».proof.Proof.Gen.KernelIdeal.Points
import proofs.«136350_j21328807592435_2_alg».proof.Proof.Gen.KernelIdeal.Frame
import proofs.«136350_j21328807592435_2_alg».proof.Proof.Gen.ReferenceIdeal
import proofs.«136350_j21328807592435_2_alg».proof.Proof.Gen.ReferenceIdeal.Run
import proofs.«136350_j21328807592435_2_alg».proof.Proof.Gen.ReferenceIdeal.Read
import proofs.«136350_j21328807592435_2_alg».proof.Proof.Gen.Pre_finite_inputs
import proofs.«136350_j21328807592435_2_alg».proof.Proof.KernelResult
import proofs.«136350_j21328807592435_2_alg».proof.Proof.RefValue
import Idealize.ShloMosaic.Adequacy
import Idealize.ShloMosaic.Init

noncomputable section

namespace Cert.Proof

open Idealize.ShloMosaic Idealize.SL.Sem

/-- The word-level kernel program runs and leaves its arguments unchanged: its generated frame certificate. -/
theorem frame_kernel : Cert.frame_Kernel := fun m ρ _ => Cert.Kernel.Gen.frame m ρ

/-- The same program read over the extended reals: its generated frame certificate. -/
theorem frame_kernelIdeal : Cert.frame_KernelIdeal := fun m ρ _ => Cert.KernelIdeal.Gen.frame m ρ

/-- The reference runs and leaves its arguments unchanged: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the one result array of the arguments, which agree. -/
theorem algebraic : Cert.algebraic_KernelIdeal_ReferenceIdeal := by
  intro m ρ m' ρ' _ hagree
  refine ⟨fun c => Cert.PairNet.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    Cert.PairNet.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v47_eq, Cert.PairNet.RefValue.reference_eq, h0, h1, h2, h3, h4, h5, h6, h7, h8, h9, h10,
    h11, h12, h13, h14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
